-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x6 : Shape := ⟨3, ![8, 8192, 6]⟩
abbrev S8x2048x3 : Shape := ⟨3, ![8, 2048, 3]⟩
abbrev S_ : Shape := ⟨0, ![]⟩

class Facts : Prop where
  bcast_S_S8x8192x6 : S_.BroadcastsInDim S8x8192x6 (![] : Fin 0 → Fin S8x8192x6.rank)
  reducesTo_S8x8192x6_S_d0_1_2 : S8x8192x6.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_

variable [Facts]

def fn {F : FTy → Type} [FloatOps F] (main_arg0 : FVec F S8x8192x6 .f32) (main_arg1 : FVec F S8x2048x3 .f32) : IVec S_ 1 :=
  let main_v0 : FVec F S8x8192x6 .f32 := Host.absf main_arg0
  let main_cst : FVec F S_ .f32 := constant S_ .f32 0x7F800000#32
  let main_v1 : FVec F S8x8192x6 .f32 := broadcastInDim S8x8192x6 ![] bcast_S_S8x8192x6 main_cst
  let main_v2 : IVec S8x8192x6 1 := cmpf .olt main_v0 main_v1
  let main_c : IVec S_ 1 := constantI S_ 1 1#1
  let main_v3 : IVec S_ 1 := (fun x v => Host.reduce IntOp.andi x v reducesTo_S8x8192x6_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x8192x6 : Shape := ⟨3, ![8, 8192, 6]⟩
abbrev S8x2048x3 : Shape := ⟨3, ![8, 2048, 3]⟩
abbrev S8x3x2048 : Shape := ⟨3, ![8, 3, 2048]⟩
abbrev S8x1x128 : Shape := ⟨3, ![8, 1, 128]⟩
abbrev S1x512x6 : Shape := ⟨3, ![1, 512, 6]⟩
abbrev S1x3x2048 : Shape := ⟨3, ![1, 3, 2048]⟩
abbrev S1x1x128 : Shape := ⟨3, ![1, 1, 128]⟩
abbrev S1x2048 : Shape := ⟨2, ![1, 2048]⟩
abbrev S1x1x2048 : Shape := ⟨3, ![1, 1, 2048]⟩
abbrev S1x128 : Shape := ⟨2, ![1, 128]⟩
abbrev S1x512x3 : Shape := ⟨3, ![1, 512, 3]⟩
abbrev S512x3 : Shape := ⟨2, ![512, 3]⟩
abbrev S512x1 : Shape := ⟨2, ![512, 1]⟩
abbrev S512x2048 : Shape := ⟨2, ![512, 2048]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S2048 : Shape := ⟨1, ![2048]⟩
abbrev S8x1x1 : Shape := ⟨3, ![8, 1, 1]⟩
abbrev S8 : Shape := ⟨1, ![8]⟩
abbrev S_ : Shape := ⟨0, ![]⟩

abbrev nBuf : Space → Nat
  | .hbm => 16
  | .vmem => 10
  | .smem => 0
  | _ => 0

abbrev bufTy : (tb : Table) → Fin (tcTables nBuf tb) → BufTy
  | .hbm, ⟨0, _⟩ => ⟨S8x8192x6, .f32⟩
  | .hbm, ⟨1, _⟩ => ⟨S8x2048x3, .f32⟩
  | .hbm, ⟨2, _⟩ => ⟨S8x3x2048, .f32⟩
  | .hbm, ⟨3, _⟩ => ⟨S8x1x128, .f32⟩
  | .hbm, ⟨4, _⟩ => ⟨S8x1x128, .f32⟩
  | .hbm, ⟨5, _⟩ => ⟨S8x1x1, .f32⟩
  | .hbm, ⟨6, _⟩ => ⟨S8, .f32⟩
  | .hbm, ⟨7, _⟩ => ⟨S_, .f32⟩
  | .hbm, ⟨8, _⟩ => ⟨S_, .f32⟩
  | .hbm, ⟨9, _⟩ => ⟨S8x1x1, .f32⟩
  | .hbm, ⟨10, _⟩ => ⟨S8, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x512x6, .f32⟩
  | .local _ .vmem, ⟨1, _⟩ => ⟨S1x512x6, .f32⟩
  | .local _ .vmem, ⟨2, _⟩ => ⟨S1x3x2048, .f32⟩
  | .local _ .vmem, ⟨3, _⟩ => ⟨S1x3x2048, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x2048, .f32⟩
  | .local _ .vmem, ⟨9, _⟩ => ⟨S1x2048, .f32⟩
  | _, _ => ⟨S8x8192x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v60 : BitVec 1 := Scalar.cmpi .eq arg1 c15_i32
  let v61 : BitVec 32 := Scalar.extui v60
  let c0_i32_26 : BitVec 32 := 0#32
  let v62 : BitVec 1 := Scalar.cmpi .ne v61 c0_i32_26
  v62

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x2048x3_S8x3x2048_0_2_1 : S8x2048x3.Transposes [0, 2, 1] S8x3x2048
  inb_S1x3x2048_S1x1x2048_0_0_0 : ∀ a, (![0, 0, 0] : Fin 3 → Nat) a + S1x1x2048.size a ≤ S1x3x2048.size a
  h_S1x1x2048 : 0 < S1x1x2048.numel
  shapeCasts_S1x1x2048_S1x2048 : S1x1x2048.ShapeCasts S1x2048
  inb_S1x3x2048_S1x1x2048_0_1_0 : ∀ a, (![0, 1, 0] : Fin 3 → Nat) a + S1x1x2048.size a ≤ S1x3x2048.size a
  inb_S1x3x2048_S1x1x2048_0_2_0 : ∀ a, (![0, 2, 0] : Fin 3 → Nat) a + S1x1x2048.size a ≤ S1x3x2048.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x512x6_S1x512x3_0_0_0 : ∀ a, (![0, 0, 0] : Fin 3 → Nat) a + S1x512x3.size a ≤ S1x512x6.size a
  h_S1x512x3 : 0 < S1x512x3.numel
  shapeCasts_S1x512x3_S512x3 : S1x512x3.ShapeCasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  reduces_S512x2048_S2048 : S512x2048.Reduces [0] S2048
  shapeCasts_S2048_S1x2048 : S2048.ShapeCasts S1x2048
  shapeCasts_S1x2048_S1x1x2048 : S1x2048.ShapeCasts S1x1x2048
  reduces_S1x1x2048_S1 : S1x1x2048.Reduces [1, 2] S1
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x6.size a ≤ S8x8192x6.size a
  hwx0_0 : ∀ i : grid0.Coords, EltTy.bits .f32 = 32 ∨ (Rect.block (s := S8x8192x6) S1x512x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S8x3x2048.size a
  hwx0_1 : ∀ i : grid0.Coords, EltTy.bits .f32 = 32 ∨ (Rect.block (s := S8x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

abbrev win0_0 : Pipeline.Window sig grid0 :=
  Pipeline.Window.ofSpec (Memref.whole main_arg0) S1x512x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x8192x6 : Shape := ⟨3, ![8, 8192, 6]⟩
abbrev S8x2048x3 : Shape := ⟨3, ![8, 2048, 3]⟩
abbrev S8x8192x3 : Shape := ⟨3, ![8, 8192, 3]⟩
abbrev S_ : Shape := ⟨0, ![]⟩
abbrev S8x8192 : Shape := ⟨2, ![8, 8192]⟩
abbrev S8x8192x1 : Shape := ⟨3, ![8, 8192, 1]⟩
abbrev S8x2048 : Shape := ⟨2, ![8, 2048]⟩
abbrev S8x1x2048 : Shape := ⟨3, ![8, 1, 2048]⟩
abbrev S8x8192x2048 : Shape := ⟨3, ![8, 8192, 2048]⟩
abbrev S8x2048x1 : Shape := ⟨3, ![8, 2048, 1]⟩
abbrev S8x1x8192 : Shape := ⟨3, ![8, 1, 8192]⟩
abbrev S8x2048x8192 : Shape := ⟨3, ![8, 2048, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8x8192x6, .f32⟩
  | .hbm, ⟨1, _⟩ => ⟨S8x2048x3, .f32⟩
  | .hbm, ⟨2, _⟩ => ⟨S8x8192x3, .f32⟩
  | .hbm, ⟨3, _⟩ => ⟨S8x8192x3, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S8x2048x3, .f32⟩
  | .hbm, ⟨8, _⟩ => ⟨S_, .f32⟩
  | .hbm, ⟨9, _⟩ => ⟨S8x2048, .f32⟩
  | .hbm, ⟨10, _⟩ => ⟨S8x1x2048, .f32⟩
  | .hbm, ⟨11, _⟩ => ⟨S8x8192x2048, .f32⟩
  | .hbm, ⟨12, _⟩ => ⟨S8x8192x2048, .f32⟩
  | .hbm, ⟨13, _⟩ => ⟨S8x8192x2048, .f32⟩
  | .hbm, ⟨14, _⟩ => ⟨S8x8192x2048, .f32⟩
  | .hbm, ⟨15, _⟩ => ⟨S_, .f32⟩
  | .hbm, ⟨16, _⟩ => ⟨S8x8192x2048, .f32⟩
  | .hbm, ⟨17, _⟩ => ⟨S8x8192x2048, .f32⟩
  | .hbm, ⟨18, _⟩ => ⟨S8x8192x2048, .f32⟩
  | .hbm, ⟨19, _⟩ => ⟨S_, .f32⟩
  | .hbm, ⟨20, _⟩ => ⟨S8x8192x2048, .f32⟩
  | .hbm, ⟨21, _⟩ => ⟨S8x8192x2048, .f32⟩
  | .hbm, ⟨22, _⟩ => ⟨S8x8192x2048, .f32⟩
  | .hbm, ⟨23, _⟩ => ⟨S_, .f32⟩
  | .hbm, ⟨24, _⟩ => ⟨S8x8192, .f32⟩
  | .hbm, ⟨25, _⟩ => ⟨S_, .f32⟩
  | .hbm, ⟨26, _⟩ => ⟨S_, .f32⟩
  | .hbm, ⟨27, _⟩ => ⟨S8x2048x3, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S8x8192x3, .f32⟩
  | .hbm, ⟨32, _⟩ => ⟨S_, .f32⟩
  | .hbm, ⟨33, _⟩ => ⟨S8x8192, .f32⟩
  | .hbm, ⟨34, _⟩ => ⟨S8x1x8192, .f32⟩
  | .hbm, ⟨35, _⟩ => ⟨S8x2048x8192, .f32⟩
  | .hbm, ⟨36, _⟩ => ⟨S8x2048x8192, .f32⟩
  | .hbm, ⟨37, _⟩ => ⟨S8x2048x8192, .f32⟩
  | .hbm, ⟨38, _⟩ => ⟨S8x2048x8192, .f32⟩
  | .hbm, ⟨39, _⟩ => ⟨S_, .f32⟩
  | .hbm, ⟨40, _⟩ => ⟨S8x2048x8192, .f32⟩
  | .hbm, ⟨41, _⟩ => ⟨S8x2048x8192, .f32⟩
  | .hbm, ⟨42, _⟩ => ⟨S8x2048x8192, .f32⟩
  | .hbm, ⟨43, _⟩ => ⟨S_, .f32⟩
  | .hbm, ⟨44, _⟩ => ⟨S8x2048x8192, .f32⟩
  | .hbm, ⟨45, _⟩ => ⟨S8x2048x8192, .f32⟩
  | .hbm, ⟨46, _⟩ => ⟨S8x2048x8192, .f32⟩
  | .hbm, ⟨47, _⟩ => ⟨S_, .f32⟩
  | .hbm, ⟨48, _⟩ => ⟨S8x2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S8x8192x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S8x8192x6_S8x8192x3_0_0_0 : S8x8192x6.Slices ![0, 0, 0] S8x8192x3
  reducesTo_S8x8192x3_S8x8192_d2 : S8x8192x3.ReducesTo [2] S8x8192
  h_S_ : 0 < S_.numel
  bcast_S8x8192_S8x8192x1_0_1 : S8x8192.BroadcastsInDim S8x8192x1 (![0, 1] : Fin 2 → Fin S8x8192x1.rank)
  reducesTo_S8x2048x3_S8x2048_d2 : S8x2048x3.ReducesTo [2] S8x2048
  bcast_S8x2048_S8x1x2048_0_2 : S8x2048.BroadcastsInDim S8x1x2048 (![0, 2] : Fin 2 → Fin S8x1x2048.rank)
  bcast_S8x8192x1_S8x8192x2048_0_1_2 : S8x8192x1.BroadcastsInDim S8x8192x2048 (![0, 1, 2] : Fin 3 → Fin S8x8192x2048.rank)
  bcast_S8x1x2048_S8x8192x2048_0_1_2 : S8x1x2048.BroadcastsInDim S8x8192x2048 (![0, 1, 2] : Fin 3 → Fin S8x8192x2048.rank)
  bcast_S_S8x8192x2048 : S_.BroadcastsInDim S8x8192x2048 (![] : Fin 0 → Fin S8x8192x2048.rank)
  reducesTo_S8x8192x2048_S8x8192_d2 : S8x8192x2048.ReducesTo [2] S8x8192
  reducesTo_S8x8192_S_d0_1 : S8x8192.ReducesTo [0, 1] S_
  bcast_S8x2048_S8x2048x1_0_1 : S8x2048.BroadcastsInDim S8x2048x1 (![0, 1] : Fin 2 → Fin S8x2048x1.rank)
  bcast_S8x8192_S8x1x8192_0_2 : S8x8192.BroadcastsInDim S8x1x8192 (![0, 2] : Fin 2 → Fin S8x1x8192.rank)
  bcast_S8x2048x1_S8x2048x8192_0_1_2 : S8x2048x1.BroadcastsInDim S8x2048x8192 (![0, 1, 2] : Fin 3 → Fin S8x2048x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  reducesTo_S8x2048x8192_S8x2048_d2 : S8x2048x8192.ReducesTo [2] S8x2048
  reducesTo_S8x2048_S_d0_1 : S8x2048.ReducesTo [0, 1] S_
  dot_S8x8192x3_S8x2048x3_S8x8192x2048_2_2_1_1_0_0_wf : DotDims.WF S8x8192x3 S8x2048x3 S8x8192x2048 [2] [2] [1] [1] [0] [0]
  dot_S8x2048x3_S8x8192x3_S8x2048x8192_2_2_1_1_0_0_wf : DotDims.WF S8x2048x3 S8x8192x3 S8x2048x8192 [2] [2] [1] [1] [0] [0]

variable [Facts₀]

def dot_S8x8192x3_S8x2048x3_S8x8192x2048_2_2_1_1_0_0 : DotDims S8x8192x3 S8x2048x3 S8x8192x2048 where
  lhsContracting := [2]
  rhsContracting := [2]
  lhsNonContracting := [1]
  rhsNonContracting := [1]
  lhsBatch := [0]
  rhsBatch := [0]
  wf := dot_S8x8192x3_S8x2048x3_S8x8192x2048_2_2_1_1_0_0_wf
def dot_S8x2048x3_S8x8192x3_S8x2048x8192_2_2_1_1_0_0 : DotDims S8x2048x3 S8x8192x3 S8x2048x8192 where
  lhsContracting := [2]
  rhsContracting := [2]
  lhsNonContracting := [1]
  rhsNonContracting := [1]
  lhsBatch := [0]
  rhsBatch := [0]
  wf := dot_S8x2048x3_S8x8192x3_S8x2048x8192_2_2_1_1_0_0_wf

class Facts : Prop extends Facts₀ where

variable [Facts]
-- ==== Proof.NearestSum.lean ====
/-
  Two clouds of points in space, `X b n` (8192 points per batch `b`) and `Y b m` (2048 points per batch), and the sum,
  over every point of either cloud, of its distance to the nearest point of the other cloud, times a scale.

  The squared distance is taken in its expanded form `(|u|² + |v|²) - 2·⟨u, v⟩`, clamped below at `0`; the distance is
  its square root. One arrangement (`direct`) takes the root of every pair and then the minimum; the other (`tiled`)
  cuts the 8192 points into 16 tiles of 512, takes minima of the SQUARED distances — along a row of a tile for a point
  of `X`, down a column and then across the tiles for a point of `Y` — and the root only of the minima.

  They agree on the extended reals, with no finiteness assumed, because
  • the root is monotone (`⊥` on `⊥` and on the negatives, `√r` on `r ≥ 0`, `⊤` on `⊤`), so it commutes with a minimum
    and, fixing `⊤`, with the infimum of a finite family;
  • an index `n < 8192` is `512·j + p` for exactly one tile `j < 16` and row `p < 512`, so a sum or an infimum over the
    points is the iterated one over tiles and rows;
  • the expanded squared distance is symmetric in its two points (`+` and `·` commute).
-/
import Idealize.ShloMosaic.PureOps.Ideal.Laws
import Idealize.ShloMosaic.Lib.ValueIdx

noncomputable section

open scoped BigOperators

namespace Cert.NearestSum

open Idealize.ShloMosaic

/-! ## The root is monotone, so it commutes with minima -/

theorem sqrt_mono : Monotone Ideal.sqrt := by
  intro a b hab
  induction a using EReal.rec
  · exact bot_le
  · rename_i r
    induction b using EReal.rec
    · exact absurd hab (not_le.mpr (EReal.bot_lt_coe r))
    · rename_i s
      have hrs : r ≤ s := EReal.coe_le_coe_iff.mp hab
      show (if r < 0 then (⊥ : EReal) else ((Real.sqrt r : ℝ) : EReal)) ≤ (if s < 0 then (⊥ : EReal) else ((Real.sqrt s : ℝ) : EReal))
      split_ifs with h1 h2 h2
      · exact le_rfl
      · exact bot_le
      · exact absurd (lt_of_le_of_lt hrs h2) h1
      · exact EReal.coe_le_coe_iff.mpr (Real.sqrt_le_sqrt hrs)
    · exact le_top
  · have hb : b = ⊤ := top_le_iff.mp hab
    subst hb
    exact le_rfl

theorem sqrt_min (a b : EReal) : Ideal.sqrt (min a b) = min (Ideal.sqrt a) (Ideal.sqrt b) := sqrt_mono.map_min

/-- The root of the infimum of a finite family is the infimum of the roots (of an empty family both are `⊤`). -/
theorem sqrt_inf {ι : Type*} (s : Finset ι) (f : ι → EReal) :
    Ideal.sqrt (s.inf f) = s.inf fun i => Ideal.sqrt (f i) :=
  Finset.comp_inf_eq_inf_comp Ideal.sqrt (fun x y => sqrt_mono.map_inf x y) rfl

/-- The infimum over the first `n + 1` naturals takes in one more member. -/
theorem inf_range_succ (f : ℕ → EReal) (n : ℕ) :
    (Finset.range (n + 1)).inf f = min ((Finset.range n).inf f) (f n) := by
  rw [Finset.range_add_one, Finset.inf_insert]
  exact inf_comm _ _

/-! ## 8192 points as 16 tiles of 512 -/

/-- Row `p` of tile `j` among the 8192 points (for `j < 16` it is point `512·j + p`). -/
def tileRow (j : ℕ) (p : Fin 512) : Fin 8192 := ⟨(512 * j + p.val) % 8192, Nat.mod_lt _ (by decide)⟩

theorem tileRow_val (j : ℕ) (hj : j < 16) (p : Fin 512) : (tileRow j p).val = 512 * j + p.val := by
  have := p.isLt
  show (512 * j + p.val) % 8192 = 512 * j + p.val
  omega

/-- A tile and a row in it name one point, and every point is so named once. -/
def tileEquiv : Fin 16 × Fin 512 ≃ Fin 8192 where
  toFun x := ⟨512 * x.1.val + x.2.val, by have := x.1.isLt; have := x.2.isLt; omega⟩
  invFun n := (⟨n.val / 512, by have := n.isLt; omega⟩, ⟨n.val % 512, Nat.mod_lt _ (by decide)⟩)
  left_inv x := by
    have h1 := x.1.isLt
    have h2 := x.2.isLt
    refine Prod.ext (Fin.ext ?_) (Fin.ext ?_)
    · show (512 * x.1.val + x.2.val) / 512 = x.1.val
      omega
    · show (512 * x.1.val + x.2.val) % 512 = x.2.val
      omega
  right_inv n := Fin.ext (by
    show 512 * (n.val / 512) + n.val % 512 = n.val
    omega)

theorem tileRow_eq (j : Fin 16) (p : Fin 512) : tileRow j.val p = tileEquiv (j, p) :=
  Fin.ext (tileRow_val j.val j.isLt p)

/-- A sum over the points is the sum over the tiles of the sums over their rows. -/
theorem sum_tiles {M : Type*} [AddCommMonoid M] (f : Fin 8192 → M) :
    ∑ n, f n = ∑ j ∈ Finset.range 16, ∑ p : Fin 512, f (tileRow j p) := by
  rw [Finset.sum_range, ← Equiv.sum_comp tileEquiv f, Fintype.sum_prod_type]
  exact Finset.sum_congr rfl fun j _ => Finset.sum_congr rfl fun p _ => by rw [tileRow_eq]

/-- An infimum over the points is the infimum over the tiles of the infima over their rows. -/
theorem inf_tiles (g : Fin 8192 → EReal) :
    ((Finset.range 16).inf fun j => Finset.univ.inf fun p : Fin 512 => g (tileRow j p)) = Finset.univ.inf g := by
  apply le_antisymm
  · refine Finset.le_inf fun n _ => ?_
    have hn := n.isLt
    refine (Finset.inf_le (Finset.mem_range.mpr (show n.val / 512 < 16 by omega))).trans ?_
    refine (Finset.inf_le (Finset.mem_univ (⟨n.val % 512, Nat.mod_lt _ (by decide)⟩ : Fin 512))).trans ?_
    refine le_of_eq (congrArg g (Fin.ext ?_))
    show (512 * (n.val / 512) + n.val % 512) % 8192 = n.val
    omega
  · exact Finset.le_inf fun j _ => Finset.le_inf fun p _ => Finset.inf_le (Finset.mem_univ _)

/-! ## The clamped squared distance -/

/-- `|u|²`, the three squares added left to right. -/
def sq3 (u : Fin 3 → EReal) : EReal := u 0 * u 0 + u 1 * u 1 + u 2 * u 2

/-- `⟨u, v⟩`, the three products added left to right. -/
def dot3 (u v : Fin 3 → EReal) : EReal := u 0 * v 0 + u 1 * v 1 + u 2 * v 2

/-- The factor `2` of the cross term, as the f32 word both programs carry (never evaluated). -/
abbrev two : EReal := Ideal.ofBits .f32 0x40000000#32

/-- `max ((|u|² + |v|²) - 2·⟨u, v⟩) 0`. -/
def dist2 (u v : Fin 3 → EReal) : EReal := max (sq3 u + sq3 v - two * dot3 u v) 0

theorem dot3_comm (u v : Fin 3 → EReal) : dot3 u v = dot3 v u := by
  unfold dot3
  rw [mul_comm (u 0), mul_comm (u 1), mul_comm (u 2)]

theorem dist2_comm (u v : Fin 3 → EReal) : dist2 u v = dist2 v u := by
  unfold dist2
  rw [add_comm (sq3 u), dot3_comm u v]

/-- A sum over the three coordinates, added left to right. -/
theorem sum_three (f : Fin 3 → EReal) : ∑ k : Fin 3, f k = f 0 + f 1 + f 2 := Fin.sum_univ_three f

/-! ## The clouds as the two argument arrays hold them -/

/-- Column `k < 3` among the six columns of a row of the first array (the other three are not read). -/
abbrev col6 (k : Fin 3) : Fin 6 := ⟨k.val, by have := k.isLt; omega⟩

/-- Point `n` of batch `b` of the first cloud: the first three of the six entries of row `(b, n)`. -/
def cloudX (A : (⟨3, ![8, 8192, 6]⟩ : Shape).Idx → EReal) (b : Fin 8) (n : Fin 8192) (k : Fin 3) : EReal :=
  A (ValueIdx.ix3 b n (col6 k))

/-- Point `m` of batch `b` of the second cloud. -/
def cloudY (B : (⟨3, ![8, 2048, 3]⟩ : Shape).Idx → EReal) (b : Fin 8) (m : Fin 2048) (k : Fin 3) : EReal :=
  B (ValueIdx.ix3 b m k)

/-! ## The two arrangements -/

variable (X : Fin 8 → Fin 8192 → Fin 3 → EReal) (Y : Fin 8 → Fin 2048 → Fin 3 → EReal)

/-- Batch `b`, the points of `X`, tile by tile: the root of each row's minimum of squared distances. -/
def rowPart (b : Fin 8) : EReal :=
  ∑ j ∈ Finset.range 16, ∑ p : Fin 512, Ideal.sqrt (Finset.univ.inf fun q : Fin 2048 => dist2 (X b (tileRow j p)) (Y b q))

/-- Batch `b`, the points of `Y`: the root of the minimum, across the tiles, of each column's minimum. -/
def colPart (b : Fin 8) : EReal :=
  ∑ q : Fin 2048, Ideal.sqrt ((Finset.range 16).inf fun j => Finset.univ.inf fun p : Fin 512 => dist2 (X b (tileRow j p)) (Y b q))

/-- The tiled arrangement. -/
def tiled (scale : EReal) : EReal := ((∑ b, rowPart X Y b) + (∑ b, colPart X Y b)) * scale

/-- The direct arrangement: for every point the minimum of its distances to the other cloud, both ways. -/
def direct (scale : EReal) : EReal :=
  ((∑ b, ∑ n, Finset.univ.inf fun m => Ideal.sqrt (dist2 (X b n) (Y b m)))
    + (∑ b, ∑ m, Finset.univ.inf fun n => Ideal.sqrt (dist2 (Y b m) (X b n)))) * scale

theorem rowPart_eq (b : Fin 8) :
    rowPart X Y b = ∑ n, Finset.univ.inf fun m => Ideal.sqrt (dist2 (X b n) (Y b m)) := by
  unfold rowPart
  rw [sum_tiles fun n => Finset.univ.inf fun m => Ideal.sqrt (dist2 (X b n) (Y b m))]
  exact Finset.sum_congr rfl fun j _ => Finset.sum_congr rfl fun p _ => sqrt_inf _ _

theorem colPart_eq (b : Fin 8) :
    colPart X Y b = ∑ m, Finset.univ.inf fun n => Ideal.sqrt (dist2 (Y b m) (X b n)) := by
  unfold colPart
  refine Finset.sum_congr rfl fun q _ => ?_
  rw [inf_tiles fun n => dist2 (X b n) (Y b q), sqrt_inf]
  exact Finset.inf_congr rfl fun n _ => by rw [dist2_comm]

theorem tiled_eq_direct (scale : EReal) : tiled X Y scale = direct X Y scale := by
  unfold tiled direct
  rw [Finset.sum_congr rfl fun b _ => rowPart_eq X Y b, Finset.sum_congr rfl fun b _ => colPart_eq X Y b]

end Cert.NearestSum

end
-- ==== Proof.KPieces.lean ====
/-
  What each of the body's three cases leaves in the buffers it stores into, as values.

  The body reads three coordinate rows of the resident `[1, 3, 2048]` block (one row per space coordinate of the 2048
  points of `Y`) and the first three of the six columns of its `[1, 512, 6]` tile of `X`. From them and from the row of
  squared norms kept in the first scratch buffer it forms the `[512, 2048]` tile of clamped squared distances; from the
  tile it updates the accumulated sum of row-minimum roots (the first output's buffer) and the running column minimum
  (the second scratch buffer); at the last tile of a batch it also stores the sum of the roots of the column minima
  (the second output's buffer).
  • First tile of a batch: the squared norms `|Y|²`, the value `+∞` and the value `0` are stored first and read back.
  • Later tiles: the three buffers are read as the tile before left them.
  Each store covers its whole buffer, so the buffer ends at the last store's payload.
-/
import proofs.«118954_j91276644974602_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Coordinate row `0` (the `x` coordinates of the 2048 points) of the resident block. -/
def rowX (x1 : Vec F S1x3x2048 .f32) : Vec F S1x1x2048 .f32 :=
  View.ld x1 (Rect.unit (s := S1x3x2048) ![0, 0, 0] S1x1x2048.size inb_S1x3x2048_S1x1x2048_0_0_0)
/-- Coordinate row `1` (the `y` coordinates). -/
def rowY (x1 : Vec F S1x3x2048 .f32) : Vec F S1x1x2048 .f32 :=
  View.ld x1 (Rect.unit (s := S1x3x2048) ![0, 1, 0] S1x1x2048.size inb_S1x3x2048_S1x1x2048_0_1_0)
/-- Coordinate row `2` (the `z` coordinates). -/
def rowZ (x1 : Vec F S1x3x2048 .f32) : Vec F S1x1x2048 .f32 :=
  View.ld x1 (Rect.unit (s := S1x3x2048) ![0, 2, 0] S1x1x2048.size inb_S1x3x2048_S1x1x2048_0_2_0)
/-- The first three columns (the space coordinates) of the tile of 512 points. -/
def pts (x0 : Vec F S1x512x6 .f32) : Vec F S1x512x3 .f32 :=
  View.ld x0 (Rect.unit (s := S1x512x6) ![0, 0, 0] S1x512x3.size inb_S1x512x6_S1x512x3_0_0_0)

/-- The row of squared norms of the 2048 points. -/
def normRow (x1 : Vec F S1x3x2048 .f32) : FVec F S1x2048 .f32 := k0_pay7 (rowX x1) (rowY x1) (rowZ x1)

/-- The `[512, 2048]` tile of clamped squared distances, from the two blocks and a row `s` of squared norms. -/
def tile (x0 : Vec F S1x512x6 .f32) (x1 : Vec F S1x3x2048 .f32) (s : Vec F S1x2048 .f32) : FVec F S512x2048 .f32 :=
  k0_pay10 (rowX x1) (rowY x1) (rowZ x1) (pts x0) s

section CaseA
variable (c : Dev nD) (i : grid0.Coords) (arg2 : Memref sig .tc .vmem S1x512x6 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (x0 : Vec F S1x512x6 .f32) (x1 : Vec F S1x3x2048 .f32)

/-- First tile: the first scratch buffer ends at the row of squared norms. -/
theorem normRow_A : sout0_A_0 c i arg2 harg2 arg3 harg3 arg4 harg4 arg5 harg5 arg6 harg6 arg7 harg7 hc0 hc1 x0 x1 = normRow x1 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_unit_zero (S := S1x2048) hz2]
  simp only [View.readAt_eq_ld, harg3.read_unread]
  rfl

/-- First tile: the second scratch buffer ends at the minimum of `+∞` and the tile's column minima. -/
theorem colMin_A : sout0_A_1 c i arg2 harg2 arg3 harg3 arg4 harg4 arg5 harg5 arg6 harg6 arg7 harg7 hc0 hc1 x0 x1 = k0_pay2 (tile x0 x1 (normRow x1)) k0_pay8 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x2048) hz2, View.readCov_unit_zero (S := S1x2048) _ hz2,
    View.readCov_unit_zero (S := S1x2048) _ hz2]
  simp only [View.readAt_eq_ld, harg3.read_unread, harg2.read_unread]
  rfl

/-- First tile: the first output's buffer ends at `0` plus the tile's sum of row-minimum roots. -/
theorem rowAcc_A : out0_A_2 c i arg2 harg2 arg3 harg3 arg4 harg4 arg5 harg5 arg6 harg6 arg7 harg7 hc0 hc1 x0 x1 = k0_pay1 (tile x0 x1 (normRow x1)) k0_pay9 := by
  unfold out0_A_2
  rw [View.read_writes_eq_canon _ _ _ (cover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1x1x128) hz3, View.readCov_unit_zero (S := S1x2048) _ hz2,
    View.readCov_unit_zero (S := S1x1x128) _ hz3]
  simp only [View.readAt_eq_ld, harg3.read_unread, harg2.read_unread]
  rfl

end CaseA

section CaseB
variable (c : Dev nD) (i : grid0.Coords) (arg2 : Memref sig .tc .vmem S1x512x6 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : ¬cond0_1 i) (x0 : Vec F S1x512x6 .f32) (x1 : Vec F S1x3x2048 .f32)
  (xo2 : Vec F S1x1x128 .f32) (xs0 : Vec F S1x2048 .f32) (xs1 : Vec F S1x2048 .f32)

/-- A middle tile: the second scratch buffer ends at the minimum of what it held and the tile's column minima. -/
theorem colMin_B : sout0_B_1 c i arg2 harg2 arg3 harg3 arg4 harg4 arg5 harg5 arg6 harg6 arg7 harg7 hc0 hc1 x0 x1 xo2 xs0 xs1 = k0_pay2 (tile x0 x1 xs0) xs1 := by
  unfold sout0_B_1
  rw [View.read_writes_eq_canon _ _ _ (scover0_B_1 c i arg2 harg2 arg3 harg3 arg4 harg4 arg5 harg5 arg6 harg6 arg7 harg7 hc0 hc1 x0 x1 xo2 xs0 xs1)]
  unfold kernelRun0_B
  try dsimp only
  try sl_unfold_words
  rw [View.canon_unit_zero (S := S1x2048) hz2]
  simp only [View.readAt_eq_ld, harg3.read_unread, harg2.read_unread, harg6.read_unread, harg7.read_unread,
    View.ld_unit_zero (S := S1x2048) hz2]
  rfl

/-- A middle tile: the first output's buffer ends at what it held plus the tile's sum of row-minimum roots. -/
theorem rowAcc_B : out0_B_2 c i arg2 harg2 arg3 harg3 arg4 harg4 arg5 harg5 arg6 harg6 arg7 harg7 hc0 hc1 x0 x1 xo2 xs0 xs1 = k0_pay1 (tile x0 x1 xs0) xo2 := by
  unfold out0_B_2
  rw [View.read_writes_eq_canon _ _ _ (cover0_B_2 c i arg2 harg2 arg3 harg3 arg4 harg4 arg5 harg5 arg6 harg6 arg7 harg7 hc0 hc1 x0 x1 xo2 xs0 xs1)]
  unfold kernelRun0_B
  try dsimp only
  try sl_unfold_words
  rw [View.canon_unit_zero (S := S1x1x128) hz3]
  simp only [View.readAt_eq_ld, harg3.read_unread, harg2.read_unread, harg6.read_unread, harg4.read_unread,
    View.ld_unit_zero (S := S1x2048) hz2, View.ld_unit_zero (S := S1x1x128) hz3]
  rfl

end CaseB

section CaseC
variable (c : Dev nD) (i : grid0.Coords) (arg2 : Memref sig .tc .vmem S1x512x6 .f32) (harg2 : arg2.IsWhole) (arg3 : Memref sig .tc .vmem S1x3x2048 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (x0 : Vec F S1x512x6 .f32) (x1 : Vec F S1x3x2048 .f32)
  (xo2 : Vec F S1x1x128 .f32) (xs0 : Vec F S1x2048 .f32) (xs1 : Vec F S1x2048 .f32)

/-- The last tile: the second scratch buffer ends at the minimum of what it held and the tile's column minima. -/
theorem colMin_C : sout0_C_1 c i arg2 harg2 arg3 harg3 arg4 harg4 arg5 harg5 arg6 harg6 arg7 harg7 hc0 hc1 x0 x1 xo2 xs0 xs1 = k0_pay2 (tile x0 x1 xs0) xs1 := by
  unfold sout0_C_1
  rw [View.read_writes_eq_canon _ _ _ (scover0_C_1 c i arg2 harg2 arg3 harg3 arg4 harg4 arg5 harg5 arg6 harg6 arg7 harg7 hc0 hc1 x0 x1 xo2 xs0 xs1)]
  unfold kernelRun0_C
  try dsimp only
  try sl_unfold_words
  rw [View.canon_unit_zero (S := S1x2048) hz2]
  simp only [View.readAt_eq_ld, harg3.read_unread, harg2.read_unread, harg6.read_unread, harg7.read_unread,
    View.ld_unit_zero (S := S1x2048) hz2]
  rfl

/-- The last tile: the first output's buffer ends at what it held plus the tile's sum of row-minimum roots. -/
theorem rowAcc_C : out0_C_2 c i arg2 harg2 arg3 harg3 arg4 harg4 arg5 harg5 arg6 harg6 arg7 harg7 hc0 hc1 x0 x1 xo2 xs0 xs1 = k0_pay1 (tile x0 x1 xs0) xo2 := by
  unfold out0_C_2
  rw [View.read_writes_eq_canon _ _ _ (cover0_C_2 c i arg2 harg2 arg3 harg3 arg4 harg4 arg5 harg5 arg6 harg6 arg7 harg7 hc0 hc1 x0 x1 xo2 xs0 xs1)]
  unfold kernelRun0_C
  try dsimp only
  try sl_unfold_words
  rw [View.canon_unit_zero (S := S1x1x128) hz3]
  simp only [View.readAt_eq_ld, harg3.read_unread, harg2.read_unread, harg6.read_unread, harg4.read_unread,
    View.ld_unit_zero (S := S1x2048) hz2, View.ld_unit_zero (S := S1x1x128) hz3]
  rfl

/-- The last tile: the second output's buffer ends at the sum of the roots of the finished column minima. -/
theorem colSum_C : out0_C_3 c i arg2 harg2 arg3 harg3 arg4 harg4 arg5 harg5 arg6 harg6 arg7 harg7 hc0 hc1 x0 x1 xo2 xs0 xs1 = k0_pay3 (k0_pay2 (tile x0 x1 xs0) xs1) := by
  unfold out0_C_3
  rw [View.read_writes_eq_canon _ _ _ (cover0_C_3 c i arg2 harg2 arg3 harg3 arg4 harg4 arg5 harg5 arg6 harg6 arg7 harg7 hc0 hc1 x0 x1 xo2 xs0 xs1)]
  unfold kernelRun0_C
  try dsimp only
  try sl_unfold_words
  rw [View.canon_unit_zero (S := S1x1x128) hz3, View.readCov_unit_zero (S := S1x2048) _ hz2]
  simp only [View.readAt_eq_ld, harg3.read_unread, harg2.read_unread, harg6.read_unread, harg7.read_unread,
    View.ld_unit_zero (S := S1x2048) hz2]
  rfl

end CaseC

end Cert.KernelIdeal.Pieces

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibTileLayout.lean ====
/-
  Readings, at an index written by its coordinates, of the operations that turn a matrix `[a, b]` of pairwise
  values into its row minima and its column minima, and of one more keepdims cast:
  • a column `[a, 1]` cast to the vector `[a]` reads, at `i`, the column at `(i, u)` (the unit coordinate `u` is
    whatever the caller writes: there is only one);
  • the f32 word `0x7F800000` denotes `⊤` on the extended reals, the value a minimum starts from;
  • a minimum reduction over the LAST axis of a matrix, started from a word that denotes `⊤`, read at row `p`, is the
    infimum of that row's `b` entries; over the FIRST axis, read at column `c`, the infimum of that column's `a`
    entries. The reduction folds `min` over the entries in some order; `min` commutes and associates, so the fold
    is the fold over the finite set of the reduced coordinate, which from `⊤` is that set's infimum;
  • the factors of a tile of pairwise products: for `v : [a, n]` and `w : [b, n]`, column `d` of `v` spread along the
    rows of `[a, b]` reads `v (p, d)` at `(p, c)`, column `d` of `w` turned into a row and spread along the columns
    reads `w (c, d)`; and a last-axis sum of `[a, n]` spread the first way reads the sum of row `p`, a last-axis sum
    of `[b, n]` spread the second way the sum of row `c`.
-/
import Idealize.ShloMosaic.Lib.ValueLayout
import Idealize.ShloMosaic.PureOps.Ideal.Laws
import proofs.«118954_j91276644974602_2_alg».proof.Proof.LibKeepdims

open scoped BigOperators

namespace Cert.LibTileLayout

open Idealize.ShloMosaic Idealize.ShloMosaic.ValueIdx

variable {α : Type}

/-- A column `[a, 1]` cast to the vector `[a]` reads, at `i`, the column at `(i, u)`: both indices sit at row-major
    position `i`. -/
theorem shapeCast_a1_a_apply {a : ℕ} (x : (⟨2, ![a, 1]⟩ : Shape).Idx → α) (h : (⟨2, ![a, 1]⟩ : Shape).ShapeCasts ⟨1, ![a]⟩)
    (i : Fin a) (u : Fin 1) : shapeCast ⟨1, ![a]⟩ x h (ix1 i) = x (ix2 i u) :=
  shapeCast_apply x h _ _ (by
    have hu : u.val = 0 := by omega
    rw [Shape.rowMajor_val_two, Shape.rowMajor_val_one]
    show i.val * 1 + u.val = i.val
    rw [hu, Nat.mul_one, Nat.add_zero])

/-- The f32 word of `+∞` denotes `⊤`. -/
theorem ofBits_posInf_f32 : Ideal.ofBits .f32 0x7F800000#32 = ⊤ := by simp [Ideal.ofBits, Ideal.ieee]

/-- On the extended reals the fold of `min` from `⊤` over all of a finite type is the infimum over it. -/
theorem fold_min_top_eq_inf {ι : Type} [Fintype ι] (f : ι → EReal) :
    (Finset.univ : Finset ι).fold min (⊤ : EReal) f = Finset.univ.inf f := rfl

/-- At the ideal values a float `vector.multi_reduction <minimumf>` over the LAST axis of an `[a, b]` matrix, started
    from a word that denotes `⊤`, read at row `p`, is the infimum of that row's `b` entries. -/
theorem multiReduction_minimumf_lastAxis_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (htop : Ideal.ofBits .f32 acc = ⊤) (p : Fin a) :
    multiReduction .minimumf [1] ⟨1, ![a]⟩ src acc h hφ hacc (ix1 p)
      = (Finset.univ.inf fun k : Fin b => src (ix2 p k) : EReal) := by
  refine (multiReduction_minimumf_eq_fold src acc h hφ hacc (ix1 p)).trans ?_
  refine (h.fold_filter_drop_single FloatOps.minimumf (FloatOps.ofBits .f32 acc) src (ix1 p)).trans ?_
  show (Finset.univ : Finset (Fin b)).fold min (Ideal.ofBits .f32 acc) (fun k => src (h.lift (ix1 p) k)) = _
  rw [htop]
  refine (fold_min_top_eq_inf _).trans (Finset.inf_congr rfl fun k _ => congrArg src ?_)
  funext ax; apply Fin.ext
  match ax with
  | ⟨0, _⟩ => rfl
  | ⟨1, _⟩ => rfl

/-- The same over the FIRST axis: read at column `c`, the infimum of that column's `a` entries. -/
theorem multiReduction_minimumf_firstAxis_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (htop : Ideal.ofBits .f32 acc = ⊤) (c : Fin b) :
    multiReduction .minimumf [0] ⟨1, ![b]⟩ src acc h hφ hacc (ix1 c)
      = (Finset.univ.inf fun r : Fin a => src (ix2 r c) : EReal) := by
  refine (multiReduction_minimumf_eq_fold src acc h hφ hacc (ix1 c)).trans ?_
  refine (h.fold_filter_drop_single FloatOps.minimumf (FloatOps.ofBits .f32 acc) src (ix1 c)).trans ?_
  show (Finset.univ : Finset (Fin a)).fold min (Ideal.ofBits .f32 acc) (fun r => src (h.lift (ix1 c) r)) = _
  rw [htop]
  refine (fold_min_top_eq_inf _).trans (Finset.inf_congr rfl fun r _ => congrArg src ?_)
  funext ax; apply Fin.ext
  match ax with
  | ⟨0, _⟩ => rfl
  | ⟨1, _⟩ => rfl

/-! ## A factor of a pairwise product, and a squared norm, spread over the tile

For two matrices of points, `v : [a, n]` (a row per point of the tile) and `w : [b, n]` (a row per point of the cloud), the
`[a, b]` tile of products of coordinate `d` is built from column `d` of `v` spread along the rows and column `d` of
`w`, turned into a row, spread along the columns; the squared norms likewise from a last-axis sum. -/

/-- Column `d` of `v : [a, n]`, cut out as `[a, 1]` and broadcast to `[a, b]`, reads at `(p, c)` the entry `v (p, d)`. -/
theorem broadcastTo_sliceCol_apply {a b n : ℕ} (d : ℕ) (v : (⟨2, ![a, n]⟩ : Shape).Idx → α)
    (hs : (⟨2, ![a, n]⟩ : Shape).Slices ![0, d] ⟨2, ![a, 1]⟩) (hb : (⟨2, ![a, 1]⟩ : Shape).Broadcasts ⟨2, ![a, b]⟩)
    (p : Fin a) (c : Fin b) (k : Fin n) (hk : k.val = d) :
    broadcastTo ⟨2, ![a, b]⟩ (extractStridedSlice ⟨2, ![a, 1]⟩ ![0, d] v hs) hb (ix2 p c) = v (ix2 p k) :=
  (Cert.LibKeepdims.broadcastTo_a1_ab_apply _ hb p c (0 : Fin 1)).trans
    (slice2_axis1_apply d v hs p (0 : Fin 1) k (by rw [hk]; rfl))

/-- Column `d` of `w : [b, n]`, cut out as `[b, 1]`, cast to the vector `[b]`, then to the row `[1, b]`, and broadcast to
    `[a, b]`, reads at `(p, c)` the entry `w (c, d)`. -/
theorem broadcastTo_sliceCol_row_apply {a b n : ℕ} (d : ℕ) (w : (⟨2, ![b, n]⟩ : Shape).Idx → α)
    (hs : (⟨2, ![b, n]⟩ : Shape).Slices ![0, d] ⟨2, ![b, 1]⟩) (hc1 : (⟨2, ![b, 1]⟩ : Shape).ShapeCasts ⟨1, ![b]⟩)
    (hc2 : (⟨1, ![b]⟩ : Shape).ShapeCasts ⟨2, ![1, b]⟩) (hb : (⟨2, ![1, b]⟩ : Shape).Broadcasts ⟨2, ![a, b]⟩)
    (p : Fin a) (c : Fin b) (k : Fin n) (hk : k.val = d) :
    broadcastTo ⟨2, ![a, b]⟩ (shapeCast ⟨2, ![1, b]⟩ (shapeCast ⟨1, ![b]⟩ (extractStridedSlice ⟨2, ![b, 1]⟩ ![0, d] w hs) hc1) hc2) hb
      (ix2 p c) = w (ix2 c k) :=
  (broadcastTo_1b_ab_apply _ hb p c).trans <|
    (shapeCast_a_1a_apply _ hc2 (0 : Fin 1) c).trans <|
      (shapeCast_a1_a_apply _ hc1 c (0 : Fin 1)).trans
        (slice2_axis1_apply d w hs c (0 : Fin 1) k (by rw [hk]; rfl))

/-- The last-axis sum of `m : [a, n]`, as the column `[a, 1]`, broadcast to `[a, b]`, reads at `(p, c)` the sum of row `p`. -/
theorem broadcastTo_rowSum_apply {a b n : ℕ} (m : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ m acc h hφ hacc) hc) hb (ix2 p c)
      = ∑ k : Fin n, m (ix2 p k) :=
  (Cert.LibKeepdims.broadcastTo_a1_ab_apply _ hb p c (0 : Fin 1)).trans <|
    (Cert.LibKeepdims.shapeCast_a_a1_apply _ hc p (0 : Fin 1)).trans
      (Cert.LibKeepdims.multiReduction_add_lastAxis_apply m acc h hφ hacc p)

/-- The last-axis sum of `m : [b, n]`, as the row `[1, b]`, broadcast to `[a, b]`, reads at `(p, c)` the sum of row `c`. -/
theorem broadcastTo_rowSum_row_apply {a b n : ℕ} (m : FVec Ideal ⟨2, ![b, n]⟩ .f32) (acc : BitVec 32)
    (h : (⟨2, ![b, n]⟩ : Shape).Reduces [1] ⟨1, ![b]⟩) (hφ : FKind.Formats .f32) (hacc : acc = FKind.add.neutral .f32 hφ)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ (multiReduction .add [1] ⟨1, ![b]⟩ m acc h hφ hacc) hc) hb (ix2 p c)
      = ∑ k : Fin n, m (ix2 c k) :=
  (broadcastTo_1b_ab_apply _ hb p c).trans <|
    (shapeCast_a_1a_apply _ hc (0 : Fin 1) c).trans
      (Cert.LibKeepdims.multiReduction_add_lastAxis_apply m acc h hφ hacc c)

end Cert.LibTileLayout
-- ==== Proof.LibSumIdx3.lean ====
/-
  Sums over a rank-3 index set, by coordinates. The index set of a shape `[n0, n1, n2]` is the product of its three
  coordinate ranges, so a sum over it is the triple sum over the coordinates; when one axis has extent one the sum
  over that axis is its single term, and what is left is the double sum over the two other coordinates with the
  unit coordinate at `0`.
-/
import Idealize.ShloMosaic.Lib.ValueIdx

noncomputable section

open scoped BigOperators

namespace Cert.LibSumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Over a shape `[n0, n1, 1]`: the double sum over the first two coordinates, the last at `0`. -/
theorem sum_idx3_unit_last {M : Type*} [AddCommMonoid M] {n0 n1 : Nat} (f : (⟨3, ![n0, n1, 1]⟩ : Shape).Idx → M) :
    ∑ i, f i = ∑ a : Fin n0, ∑ b : Fin n1, f (ix3 a b 0) := by
  rw [sum_idx3]
  refine Finset.sum_congr rfl fun a _ => Finset.sum_congr rfl fun b _ => ?_
  exact Fin.sum_univ_one _

/-- Over a shape `[n0, 1, n2]`: the double sum over the first and last coordinates, the middle one at `0`. -/
theorem sum_idx3_unit_mid {M : Type*} [AddCommMonoid M] {n0 n2 : Nat} (f : (⟨3, ![n0, 1, n2]⟩ : Shape).Idx → M) :
    ∑ i, f i = ∑ a : Fin n0, ∑ c : Fin n2, f (ix3 a 0 c) := by
  rw [sum_idx3]
  refine Finset.sum_congr rfl fun a _ => ?_
  exact Fin.sum_univ_one _

end Cert.LibSumIdx3

end
-- ==== Proof.KPayloads.lean ====
/-
  The body's arithmetic read at an index, on the extended reals.

  With `u = (x, y, z)` the coordinates of row `p` of the tile and `v = (x', y', z')` those of point `q` of the resident
  block, and `s q` the entry of a row of squared norms:
  • the tile of clamped squared distances at `(p, q)` is `max ((|u|² + s q) - 2·⟨u, v⟩) 0`;
  • the row of squared norms at `q` is `|v|²`;
  • the accumulated output, at every lane, is what it held plus `∑ p, √(min over q of the tile's row p)`;
  • the running column minimum at `q` is the minimum of what it held and the minimum over `p` of the tile's column `q`;
  • the column total, at every lane, is `∑ q, √(the column minimum at q)`;
  • the two fills are `⊤` (the f32 word of `+∞`) and the f32 word of `0`.
-/
import proofs.«118954_j91276644974602_2_alg».proof.Proof.KPieces
import proofs.«118954_j91276644974602_2_alg».proof.Proof.NearestSum
import proofs.«118954_j91276644974602_2_alg».proof.Proof.LibKeepdims
import proofs.«118954_j91276644974602_2_alg».proof.Proof.LibTileLayout
import proofs.«118954_j91276644974602_2_alg».proof.Proof.LibSumIdx3
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx

namespace Cert.KernelIdeal.Payloads

open Cert.KernelIdeal Cert.KernelIdeal.Gen Cert.KernelIdeal.Pieces
open Cert.NearestSum (col6)

/-! ## The loaded sub-blocks -/

theorem rowX_apply (x1 : Vec Ideal S1x3x2048 .f32) (q : Fin 2048) : rowX x1 (ix3 (0 : Fin 1) (0 : Fin 1) q) = x1 (ix3 (0 : Fin 1) (0 : Fin 3) q) :=
  congrArg x1 (funext fun a => Fin.ext (by
    match a with
    | ⟨0, _⟩ => rfl
    | ⟨1, _⟩ => rfl
    | ⟨2, _⟩ => show 0 + 1 * q.val = q.val; omega))

theorem rowY_apply (x1 : Vec Ideal S1x3x2048 .f32) (q : Fin 2048) : rowY x1 (ix3 (0 : Fin 1) (0 : Fin 1) q) = x1 (ix3 (0 : Fin 1) (1 : Fin 3) q) :=
  congrArg x1 (funext fun a => Fin.ext (by
    match a with
    | ⟨0, _⟩ => rfl
    | ⟨1, _⟩ => rfl
    | ⟨2, _⟩ => show 0 + 1 * q.val = q.val; omega))

theorem rowZ_apply (x1 : Vec Ideal S1x3x2048 .f32) (q : Fin 2048) : rowZ x1 (ix3 (0 : Fin 1) (0 : Fin 1) q) = x1 (ix3 (0 : Fin 1) (2 : Fin 3) q) :=
  congrArg x1 (funext fun a => Fin.ext (by
    match a with
    | ⟨0, _⟩ => rfl
    | ⟨1, _⟩ => rfl
    | ⟨2, _⟩ => show 0 + 1 * q.val = q.val; omega))

theorem pts_apply (x0 : Vec Ideal S1x512x6 .f32) (p : Fin 512) (k : Fin 3) :
    pts x0 (ix3 (0 : Fin 1) p k) = x0 (ix3 (0 : Fin 1) p (col6 k)) :=
  congrArg x0 (funext fun a => Fin.ext (by
    match a with
    | ⟨0, _⟩ => rfl
    | ⟨1, _⟩ => show 0 + 1 * p.val = p.val; omega
    | ⟨2, _⟩ => show 0 + 1 * k.val = k.val; omega))

/-! ## The row of squared norms -/

theorem castRow_apply (v : Vec Ideal S1x1x2048 .f32) (h : S1x1x2048.ShapeCasts S1x2048) (q : Fin 2048) :
    shapeCast S1x2048 v h (ix2 (0 : Fin 1) q) = v (ix3 (0 : Fin 1) (0 : Fin 1) q) :=
  shapeCast_1ab_ab_apply v h (0 : Fin 1) q

theorem normRow_apply (x1 : Vec Ideal S1x3x2048 .f32) (q : Fin 2048) :
    normRow x1 (ix2 (0 : Fin 1) q)
      = x1 (ix3 (0 : Fin 1) (0 : Fin 3) q) * x1 (ix3 (0 : Fin 1) (0 : Fin 3) q)
        + x1 (ix3 (0 : Fin 1) (1 : Fin 3) q) * x1 (ix3 (0 : Fin 1) (1 : Fin 3) q)
        + x1 (ix3 (0 : Fin 1) (2 : Fin 3) q) * x1 (ix3 (0 : Fin 1) (2 : Fin 3) q) := by
  unfold normRow k0_pay7 k0_pay4 k0_pay5 k0_pay6
  simp only [shapeCast_self, addf_apply, mulf_apply]
  rw [castRow_apply, castRow_apply, castRow_apply, rowX_apply, rowY_apply, rowZ_apply]

/-! ## The tile of clamped squared distances -/

/-- Column `d` of the tile's points spread along the rows of the `[512, 2048]` tile reads coordinate `d` of row `p`. -/
theorem spreadCol_apply (x0 : Vec Ideal S1x512x6 .f32) (d : ℕ) (k : Fin 3) (hk : k.val = d)
    (hc : S1x512x3.ShapeCasts S512x3) (hs : S512x3.Slices ![0, d] S512x1) (hb : S512x1.Broadcasts S512x2048)
    (p : Fin 512) (q : Fin 2048) :
    broadcastTo S512x2048 (extractStridedSlice S512x1 ![0, d] (shapeCast S512x3 (pts x0) hc) hs) hb (ix2 p q)
      = x0 (ix3 (0 : Fin 1) p (col6 k)) :=
  (Cert.LibTileLayout.broadcastTo_sliceCol_apply d (shapeCast S512x3 (pts x0) hc) hs hb p q k hk).trans
    ((shapeCast_1ab_ab_apply (pts x0) hc p k).trans (pts_apply x0 p k))

/-- The same column as the `[512, 1]` column it is cut as, at row `p`. -/
theorem cutCol_apply (x0 : Vec Ideal S1x512x6 .f32) (d : ℕ) (k : Fin 3) (hk : k.val = d)
    (hc : S1x512x3.ShapeCasts S512x3) (hs : S512x3.Slices ![0, d] S512x1) (p : Fin 512) :
    extractStridedSlice S512x1 ![0, d] (shapeCast S512x3 (pts x0) hc) hs (ix2 p (0 : Fin 1)) = x0 (ix3 (0 : Fin 1) p (col6 k)) :=
  (slice2_axis1_apply d (shapeCast S512x3 (pts x0) hc) hs p (0 : Fin 1) k (by rw [hk]; rfl)).trans
    ((shapeCast_1ab_ab_apply (pts x0) hc p k).trans (pts_apply x0 p k))

/-- A coordinate row of the resident block spread down the columns of the tile reads that coordinate of point `q`. -/
theorem spreadRow_apply (v : Vec Ideal S1x1x2048 .f32) (hc : S1x1x2048.ShapeCasts S1x2048) (hb : S1x2048.Broadcasts S512x2048)
    (p : Fin 512) (q : Fin 2048) :
    broadcastTo S512x2048 (shapeCast S1x2048 v hc) hb (ix2 p q) = v (ix3 (0 : Fin 1) (0 : Fin 1) q) :=
  (broadcastTo_1b_ab_apply (shapeCast S1x2048 v hc) hb p q).trans (castRow_apply v hc q)

theorem spreadNorms_apply (s : Vec Ideal S1x2048 .f32) (hb : S1x2048.Broadcasts S512x2048) (p : Fin 512) (q : Fin 2048) :
    broadcastTo S512x2048 s hb (ix2 p q) = s (ix2 (0 : Fin 1) q) :=
  broadcastTo_1b_ab_apply s hb p q

theorem spreadColumn_apply (w : FVec Ideal S512x1 .f32) (hb : S512x1.Broadcasts S512x2048) (p : Fin 512) (q : Fin 2048) :
    broadcastTo S512x2048 w hb (ix2 p q) = w (ix2 p (0 : Fin 1)) :=
  Cert.LibKeepdims.broadcastTo_a1_ab_apply w hb p q (0 : Fin 1)

theorem tile_apply (x0 : Vec Ideal S1x512x6 .f32) (x1 : Vec Ideal S1x3x2048 .f32) (s : Vec Ideal S1x2048 .f32)
    (p : Fin 512) (q : Fin 2048) :
    tile x0 x1 s (ix2 p q)
      = max ((x0 (ix3 (0 : Fin 1) p (0 : Fin 6)) * x0 (ix3 (0 : Fin 1) p (0 : Fin 6))
              + x0 (ix3 (0 : Fin 1) p (1 : Fin 6)) * x0 (ix3 (0 : Fin 1) p (1 : Fin 6))
              + x0 (ix3 (0 : Fin 1) p (2 : Fin 6)) * x0 (ix3 (0 : Fin 1) p (2 : Fin 6))
              + s (ix2 (0 : Fin 1) q))
            - Ideal.ofBits .f32 0x40000000#32
              * (x0 (ix3 (0 : Fin 1) p (0 : Fin 6)) * x1 (ix3 (0 : Fin 1) (0 : Fin 3) q)
                + x0 (ix3 (0 : Fin 1) p (1 : Fin 6)) * x1 (ix3 (0 : Fin 1) (1 : Fin 3) q)
                + x0 (ix3 (0 : Fin 1) p (2 : Fin 6)) * x1 (ix3 (0 : Fin 1) (2 : Fin 3) q)))
          (Ideal.ofBits .f32 0x00000000#32) := by
  unfold tile k0_pay10 k0_pay4 k0_pay5 k0_pay6
  simp only [maximumf_apply, subf_apply, addf_apply, mulf_apply, broadcast_apply]
  rw [spreadColumn_apply, spreadNorms_apply]
  simp only [addf_apply, mulf_apply]
  rw [spreadCol_apply x0 0 (0 : Fin 3) rfl, spreadCol_apply x0 1 (1 : Fin 3) rfl, spreadCol_apply x0 2 (2 : Fin 3) rfl,
    cutCol_apply x0 0 (0 : Fin 3) rfl, cutCol_apply x0 1 (1 : Fin 3) rfl, cutCol_apply x0 2 (2 : Fin 3) rfl,
    spreadRow_apply (rowX x1), spreadRow_apply (rowY x1), spreadRow_apply (rowZ x1), rowX_apply, rowY_apply, rowZ_apply]
  rfl

/-! ## The fills -/

theorem fillTop_apply (i : S1x2048.Idx) : (k0_pay8 (F := Ideal)) i = ⊤ := by
  unfold k0_pay8
  rw [shapeCast_self]
  exact Cert.LibTileLayout.ofBits_posInf_f32

theorem fillZero_apply (l : Fin 128) : (k0_pay9 (F := Ideal)) (ix3 (0 : Fin 1) (0 : Fin 1) l) = 0 := by
  unfold k0_pay9
  rw [shapeCast_ab_1ab_apply]
  exact Ideal.ofBits_zero_f32

/-! ## The running column minimum -/

theorem colMin_apply (v38 : FVec Ideal S512x2048 .f32) (v55 : Vec Ideal S1x2048 .f32) (q : Fin 2048) :
    k0_pay2 v38 v55 (ix2 (0 : Fin 1) q) = min (v55 (ix2 (0 : Fin 1) q)) (Finset.univ.inf fun p : Fin 512 => v38 (ix2 p q)) := by
  unfold k0_pay2
  rw [shapeCast_self]
  refine congrArg (min (v55 (ix2 (0 : Fin 1) q))) ?_
  refine (shapeCast_a_1a_apply _ shapeCasts_S2048_S1x2048 (0 : Fin 1) q).trans ?_
  exact Cert.LibTileLayout.multiReduction_minimumf_firstAxis_apply v38 0x7F800000#32 reduces_S512x2048_S2048 (.inl rfl) rfl
    Cert.LibTileLayout.ofBits_posInf_f32 q

/-! ## The accumulated sum of row-minimum roots -/

/-- A sum over a single-member index type is its one term. -/
theorem sum_fin_one (f : Fin 1 → EReal) : ∑ a : Fin 1, f a = f 0 := Fin.sum_univ_one f

/-- The elementwise root read at an index. -/
theorem vsqrt_apply {s : Shape} (x : FVec Ideal s .f32) (i : s.Idx) : sqrt x i = Ideal.sqrt (x i) := rfl

/-- The one entry of a `[1]` vector recast as `[1, 1, 1]`, when every entry of the vector is `T`. -/
theorem extractOnly (w : FVec Ideal S1 .f32) (T : EReal) (hw : ∀ j, w j = T) (h : S1.ShapeCasts S1x1x1)
    (hp : ∀ a, (![0, 0, 0] : Fin 3 → ℕ) a < S1x1x1.size a) : extractAt ![0, 0, 0] (shapeCast S1x1x1 w h) hp = T :=
  hw _

theorem rowAcc_apply (v38 : FVec Ideal S512x2048 .f32) (v46 : Vec Ideal S1x1x128 .f32) (l : Fin 128) :
    k0_pay1 v38 v46 (ix3 (0 : Fin 1) (0 : Fin 1) l)
      = v46 (ix3 (0 : Fin 1) (0 : Fin 1) l)
        + ∑ p : Fin 512, Ideal.sqrt (Finset.univ.inf fun q : Fin 2048 => v38 (ix2 p q)) := by
  unfold k0_pay1
  rw [shapeCast_ab_1ab_apply, addf_apply, shapeCast_1ab_ab_apply, broadcast_apply]
  refine congrArg (v46 (ix3 (0 : Fin 1) (0 : Fin 1) l) + ·) ?_
  refine (extractOnly _ _ (fun j => Ideal.multiReduction_add_total _ 0x00000000#32 reduces_S1x512x1_S1
    (fun b => by fin_cases b; rfl) (.inl rfl) rfl j) shapeCasts_S1_S1x1x1 inpos_S1x1x1_p0_0_0).trans ?_
  rw [Cert.LibSumIdx3.sum_idx3_unit_last, sum_fin_one]
  refine Finset.sum_congr rfl fun p _ => ?_
  refine (shapeCast_ab_1ab_apply _ shapeCasts_S512x1_S1x512x1 (0 : Fin 1) p (0 : Fin 1)).trans ?_
  rw [vsqrt_apply]
  refine congrArg Ideal.sqrt ?_
  refine (Cert.LibKeepdims.shapeCast_a_a1_apply _ shapeCasts_S512_S512x1 p (0 : Fin 1)).trans ?_
  exact Cert.LibTileLayout.multiReduction_minimumf_lastAxis_apply v38 0x7F800000#32 reduces_S512x2048_S512 (.inl rfl) rfl
    Cert.LibTileLayout.ofBits_posInf_f32 p

/-! ## The column total -/

theorem colSum_apply (v63 : Vec Ideal S1x2048 .f32) (l : Fin 128) :
    k0_pay3 v63 (ix3 (0 : Fin 1) (0 : Fin 1) l) = ∑ q : Fin 2048, Ideal.sqrt (v63 (ix2 (0 : Fin 1) q)) := by
  unfold k0_pay3
  rw [shapeCast_ab_1ab_apply, broadcast_apply]
  refine (extractOnly _ _ (fun j => Ideal.multiReduction_add_total _ 0x00000000#32 reduces_S1x1x2048_S1
    (fun b => by fin_cases b; rfl) (.inl rfl) rfl j) shapeCasts_S1_S1x1x1 inpos_S1x1x1_p0_0_0).trans ?_
  rw [Cert.LibSumIdx3.sum_idx3_unit_mid, sum_fin_one]
  refine Finset.sum_congr rfl fun q _ => ?_
  exact (shapeCast_ab_1ab_apply (sqrt (F := Ideal) (φ := .f32) v63) shapeCasts_S1x2048_S1x1x2048 (0 : Fin 1) (0 : Fin 1) q).trans
    (vsqrt_apply v63 (ix2 (0 : Fin 1) q))

end Cert.KernelIdeal.Payloads

end
-- ==== Proof.KBlocks.lean ====
/-
  The blocks the body is handed at grid point `t`, as entries of the two argument arrays.

  The grid is 8 batches by 16 tiles, batch-major: point `t` is tile `t % 16` of batch `t / 16`.
  • The first window's block is `[1, 512, 6]`: entry `(0, p, d)` is the first argument at batch `t / 16`, point
    `512·(t % 16) + p`, column `d`.
  • The second window stages the array the host wrote before the call, the second argument with its last two axes
    exchanged; its block is `[1, 3, 2048]`, the whole batch: entry `(0, d, q)` is the second argument at batch `t / 16`,
    point `q`, coordinate `d`.
-/
import proofs.«118954_j91276644974602_2_alg».proof.Proof.Gen.KernelIdeal.Frame
import proofs.«118954_j91276644974602_2_alg».proof.Proof.NearestSum
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.NearestSum

variable {F : FTy → Type} [FloatOps F]
variable (m : (ℓ : Loc nD τ sig) → Buf (Elt F) ℓ)

/-- The batch of grid position `n` (for `n < 128` it is `n / 16`). -/
def batchOf (n : ℕ) : Fin 8 := ⟨(n / 16) % 8, Nat.mod_lt _ (by decide)⟩

theorem N128 : cfg0.N = 128 := N_0

/-- Where the first window's block sits: batch `t / 16`, tile `t % 16`, column block `0`. -/
theorem index0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)

/-- Where the second window's block sits: batch `t / 16`, the whole of the other two axes. -/
theorem index1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

/-- The first window's block, entry by entry. -/
theorem xblock_apply (c : Dev nD) (t : Fin cfg0.N) (p : Fin 512) (d : Fin 6) :
    (iblk m c 0 t : Vec F S1x512x6 .f32) (ix3 (0 : Fin 1) p d)
      = (m ((c : Thread nD τ).loc main_arg0) : S8x8192x6.Idx → Elt F .f32) (ix3 (batchOf t.val) (tileRow (t.val % 16) p) d) := by
  obtain ⟨h0, h1, h2⟩ := index0 t
  have hN : t.val < 128 := lt_of_lt_of_eq t.isLt N128
  have hp := p.isLt
  unfold iblk
  rw [View.read_apply]
  show V m c main_arg0 _ = _
  rw [V_main_arg0]
  refine congrArg _ (funext fun a => Fin.ext ?_)
  match a with
  | ⟨0, _⟩ =>
    show win0_0.index t 0 * 1 + 1 * 0 = (t.val / 16) % 8
    rw [h0]; omega
  | ⟨1, _⟩ =>
    show win0_0.index t 1 * 512 + 1 * p.val = (512 * (t.val % 16) + p.val) % 8192
    rw [h1]; omega
  | ⟨2, _⟩ =>
    show win0_0.index t 2 * 6 + 1 * d.val = d.val
    rw [h2]; omega

/-- The array the second window stages: the second argument with its last two axes exchanged. -/
theorem staged1 (c : Dev nD) :
    (V m c main_v0 : S8x3x2048.Idx → Elt F .f32)
      = transpose S8x3x2048 [0, 2, 1] (m ((c : Thread nD τ).loc main_arg1)) transposes_S8x2048x3_S8x3x2048_0_2_1 := by
  show StableHlo.after hostOps0 (fun b => m (c, b)) (Proc.devRef .tc main_v0) = _
  after_results

/-- The second window's block, entry by entry. -/
theorem yblock_apply (c : Dev nD) (t : Fin cfg0.N) (d : Fin 3) (q : Fin 2048) :
    (iblk m c 1 t : Vec F S1x3x2048 .f32) (ix3 (0 : Fin 1) d q)
      = (m ((c : Thread nD τ).loc main_arg1) : S8x2048x3.Idx → Elt F .f32) (ix3 (batchOf t.val) q d) := by
  obtain ⟨h0, h1, h2⟩ := index1 t
  have hN : t.val < 128 := lt_of_lt_of_eq t.isLt N128
  unfold iblk
  rw [View.read_apply]
  show V m c main_v0 _ = _
  rw [staged1]
  refine Eq.trans (congrArg _ (funext fun a => Fin.ext ?_)) (transpose_ix3_021_apply _ transposes_S8x2048x3_S8x3x2048_0_2_1 (batchOf t.val) d q)
  match a with
  | ⟨0, _⟩ =>
    show win0_1.index t 0 * 1 + 1 * 0 = (t.val / 16) % 8
    rw [h0]; omega
  | ⟨1, _⟩ =>
    show win0_1.index t 1 * 3 + 1 * d.val = d.val
    rw [h1]; omega
  | ⟨2, _⟩ =>
    show win0_1.index t 2 * 2048 + 1 * q.val = q.val
    rw [h2]; omega

end Cert.KernelIdeal.Blocks

end
-- ==== Proof.KInvariant.lean ====
/-
  What the buffers the body carries from one grid point to the next hold after point `n = 16·b + j` (batch `b`, tile `j`),
  by induction on `n`:
  • the first output's buffer, at every lane: the sum over the tiles `0 … j` of batch `b` of each tile's sum, over its
    512 rows, of the root of the row's minimum squared distance to the 2048 points of the second cloud;
  • the first scratch buffer, at `q`: the squared norm of point `q` of the second cloud's batch `b`;
  • the second scratch buffer, at `q`: the minimum over the tiles `0 … j` and their rows of the squared distance to `q`.
  At the first tile of a batch (`j = 0`) the three are stored afresh (from `0`, from the block, from `⊤`); at a later
  tile the sum takes one more term and the minimum one more member. At the last tile (`j = 15`) the second output's
  buffer holds the sum over `q` of the roots of the finished minima.
-/
import proofs.«118954_j91276644974602_2_alg».proof.Proof.KPieces
import proofs.«118954_j91276644974602_2_alg».proof.Proof.KPayloads
import proofs.«118954_j91276644974602_2_alg».proof.Proof.KBlocks
import proofs.«118954_j91276644974602_2_alg».proof.Proof.NearestSum

noncomputable section

open scoped BigOperators
open Idealize.ShloMosaic Idealize.ShloMosaic.TcCoe Idealize.SL.Sem Idealize.ShloMosaic.ValueIdx

namespace Cert.KernelIdeal.Invariant

open Cert.KernelIdeal Cert.KernelIdeal.Gen Cert.KernelIdeal.Pieces Cert.KernelIdeal.Payloads Cert.KernelIdeal.Blocks Cert.NearestSum

variable (m : (ℓ : Loc nD τ sig) → Buf (Elt Ideal) ℓ) (c : Dev nD)

/-- The first cloud of this run: the first argument array on core `c`. -/
abbrev X : Fin 8 → Fin 8192 → Fin 3 → EReal := cloudX (m ((c : Thread nD τ).loc main_arg0))
/-- The second cloud of this run. -/
abbrev Y : Fin 8 → Fin 2048 → Fin 3 → EReal := cloudY (m ((c : Thread nD τ).loc main_arg1))

/-- Tile `j` of batch `b`: the sum over its rows of the root of the row's minimum squared distance. -/
def tileRows (b : Fin 8) (j : ℕ) : EReal :=
  ∑ p : Fin 512, Ideal.sqrt (Finset.univ.inf fun q : Fin 2048 => dist2 (X m c b (tileRow j p)) (Y m c b q))

/-- Tile `j` of batch `b`: the minimum over its rows of the squared distance to point `q`. -/
def tileCols (b : Fin 8) (j : ℕ) (q : Fin 2048) : EReal :=
  Finset.univ.inf fun p : Fin 512 => dist2 (X m c b (tileRow j p)) (Y m c b q)

/-! ## The tile at a grid point -/

theorem normRow_eq (t : Fin cfg0.N) (q : Fin 2048) :
    normRow (iblk m c 1 t) (ix2 (0 : Fin 1) q) = sq3 (Y m c (batchOf t.val) q) := by
  rw [normRow_apply (iblk m c 1 t) q, yblock_apply m c t 0 q, yblock_apply m c t 1 q, yblock_apply m c t 2 q]
  rfl

theorem tile_eq (t : Fin cfg0.N) (s : Vec Ideal S1x2048 .f32)
    (hs : ∀ q : Fin 2048, s (ix2 (0 : Fin 1) q) = sq3 (Y m c (batchOf t.val) q)) (p : Fin 512) (q : Fin 2048) :
    tile (iblk m c 0 t) (iblk m c 1 t) s (ix2 p q)
      = dist2 (X m c (batchOf t.val) (tileRow (t.val % 16) p)) (Y m c (batchOf t.val) q) := by
  rw [tile_apply (iblk m c 0 t) (iblk m c 1 t) s p q, hs q, xblock_apply m c t p 0, xblock_apply m c t p 1, xblock_apply m c t p 2,
    yblock_apply m c t 0 q, yblock_apply m c t 1 q, yblock_apply m c t 2 q, Ideal.ofBits_zero_f32]
  rfl

theorem tile_rows (t : Fin cfg0.N) (s : Vec Ideal S1x2048 .f32)
    (hs : ∀ q : Fin 2048, s (ix2 (0 : Fin 1) q) = sq3 (Y m c (batchOf t.val) q)) :
    (∑ p : Fin 512, Ideal.sqrt (Finset.univ.inf fun q : Fin 2048 => tile (iblk m c 0 t) (iblk m c 1 t) s (ix2 p q)))
      = tileRows m c (batchOf t.val) (t.val % 16) :=
  Finset.sum_congr rfl fun p _ => congrArg Ideal.sqrt (Finset.inf_congr rfl fun q _ => tile_eq m c t s hs p q)

theorem tile_cols (t : Fin cfg0.N) (s : Vec Ideal S1x2048 .f32)
    (hs : ∀ q : Fin 2048, s (ix2 (0 : Fin 1) q) = sq3 (Y m c (batchOf t.val) q)) (q : Fin 2048) :
    (Finset.univ.inf fun p : Fin 512 => tile (iblk m c 0 t) (iblk m c 1 t) s (ix2 p q))
      = tileCols m c (batchOf t.val) (t.val % 16) q :=
  Finset.inf_congr rfl fun p _ => tile_eq m c t s hs p q

/-! ## What a point leaves, case by case -/

/-- The first component of a pair known by an equation. -/
theorem fst_of_eq {α β : Type} {p : α × β} {a : α} {b : β} (h : p = (a, b)) : p.1 = a := by rw [h]
/-- The second component of a pair known by an equation. -/
theorem snd_of_eq {α β : Type} {p : α × β} {a : α} {b : β} (h : p = (a, b)) : p.2 = b := by rw [h]

-- The point-by-point contents and the cases' found pieces are used only through their stated equations.
attribute [local irreducible] outsAt0 out0_A_2 out0_A_3 out0_B_2 out0_B_3 out0_C_2 out0_C_3 sout0_A_0 sout0_A_1 sout0_B_1 sout0_C_1

theorem acc_first (t : Fin cfg0.N) (h0 : t.val % 16 = 0) (h1 : ¬t.val % 16 = 15) :
    (outsAt0 m c t.val t.isLt).1 = k0_pay1 (tile (iblk m c 0 t) (iblk m c 1 t) (normRow (iblk m c 1 t))) (k0_pay9 (F := Ideal)) :=
  (fst_of_eq (outsAt0_A m c t h0 h1)).trans
    (rowAcc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t))

theorem norms_first (t : Fin cfg0.N) (h0 : t.val % 16 = 0) (h1 : ¬t.val % 16 = 15) :
    (outsAt0 m c t.val t.isLt).2.2.1 = normRow (iblk m c 1 t) :=
  (fst_of_eq (snd_of_eq (snd_of_eq (outsAt0_A m c t h0 h1)))).trans
    (normRow_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t))

theorem cmin_first (t : Fin cfg0.N) (h0 : t.val % 16 = 0) (h1 : ¬t.val % 16 = 15) :
    (outsAt0 m c t.val t.isLt).2.2.2 = k0_pay2 (tile (iblk m c 0 t) (iblk m c 1 t) (normRow (iblk m c 1 t))) (k0_pay8 (F := Ideal)) :=
  (snd_of_eq (snd_of_eq (snd_of_eq (outsAt0_A m c t h0 h1)))).trans
    (colMin_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t))

theorem acc_later (t : Fin cfg0.N) (h0 : ¬t.val % 16 = 0) : (outsAt0 m c t.val t.isLt).1
    = k0_pay1 (tile (iblk m c 0 t) (iblk m c 1 t) (outsAt0 m c (t.val - 1) (Nat.lt_of_le_of_lt (Nat.sub_le _ _) t.isLt)).2.2.1) (outsAt0 m c (t.val - 1) (Nat.lt_of_le_of_lt (Nat.sub_le _ _) t.isLt)).1 := by
  by_cases h1 : t.val % 16 = 15
  · exact (fst_of_eq (outsAt0_C m c t h0 h1)).trans
      (rowAcc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2)
  · exact (fst_of_eq (outsAt0_B m c t h0 h1)).trans
      (rowAcc_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2)

theorem norms_later (t : Fin cfg0.N) (h0 : ¬t.val % 16 = 0) : (outsAt0 m c t.val t.isLt).2.2.1 = (outsAt0 m c (t.val - 1) (Nat.lt_of_le_of_lt (Nat.sub_le _ _) t.isLt)).2.2.1 := by
  by_cases h1 : t.val % 16 = 15
  · exact fst_of_eq (snd_of_eq (snd_of_eq (outsAt0_C m c t h0 h1)))
  · exact fst_of_eq (snd_of_eq (snd_of_eq (outsAt0_B m c t h0 h1)))

theorem cmin_later (t : Fin cfg0.N) (h0 : ¬t.val % 16 = 0) : (outsAt0 m c t.val t.isLt).2.2.2
    = k0_pay2 (tile (iblk m c 0 t) (iblk m c 1 t) (outsAt0 m c (t.val - 1) (Nat.lt_of_le_of_lt (Nat.sub_le _ _) t.isLt)).2.2.1) (outsAt0 m c (t.val - 1) (Nat.lt_of_le_of_lt (Nat.sub_le _ _) t.isLt)).2.2.2 := by
  by_cases h1 : t.val % 16 = 15
  · exact (snd_of_eq (snd_of_eq (snd_of_eq (outsAt0_C m c t h0 h1)))).trans
      (colMin_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2)
  · exact (snd_of_eq (snd_of_eq (snd_of_eq (outsAt0_B m c t h0 h1)))).trans
      (colMin_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2)

/-- At the last tile of a batch the second output's buffer holds the column total of the finished minima. -/
theorem total_last (t : Fin cfg0.N) (h0 : ¬t.val % 16 = 0) (h1 : t.val % 16 = 15) :
    (outsAt0 m c t.val t.isLt).2.1 = k0_pay3 (outsAt0 m c t.val t.isLt).2.2.2 :=
  ((fst_of_eq (snd_of_eq (outsAt0_C m c t h0 h1))).trans
    (colSum_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2)).trans
    (congrArg k0_pay3 (cmin_later m c t h0)).symm

/-! ## The invariant -/

/-- What the carried buffers hold after grid position `n`. -/
def Holds (n : ℕ) (hn : n < cfg0.N) : Prop :=
  (∀ l : Fin 128, (outsAt0 m c n hn).1 (ix3 (0 : Fin 1) (0 : Fin 1) l) = ∑ j ∈ Finset.range (n % 16 + 1), tileRows m c (batchOf n) j)
  ∧ (∀ q : Fin 2048, (outsAt0 m c n hn).2.2.1 (ix2 (0 : Fin 1) q) = sq3 (Y m c (batchOf n) q))
  ∧ (∀ q : Fin 2048, (outsAt0 m c n hn).2.2.2 (ix2 (0 : Fin 1) q) = (Finset.range (n % 16 + 1)).inf fun j => tileCols m c (batchOf n) j q)

theorem holds_first (t : Fin cfg0.N) (h0 : t.val % 16 = 0) : Holds m c t.val t.isLt := by
  have h1 : ¬t.val % 16 = 15 := by omega
  refine ⟨fun l => ?_, fun q => ?_, fun q => ?_⟩
  · rw [acc_first m c t h0 h1, rowAcc_apply, fillZero_apply, zero_add, tile_rows m c t _ (normRow_eq m c t), h0,
      Finset.sum_range_one]
  · rw [norms_first m c t h0 h1]
    exact normRow_eq m c t q
  · rw [cmin_first m c t h0 h1, colMin_apply, fillTop_apply, tile_cols m c t _ (normRow_eq m c t) q, h0, Finset.range_one,
      Finset.inf_singleton]
    exact min_top_left _

theorem holds_later (t : Fin cfg0.N) (h0 : ¬t.val % 16 = 0)
    (hp : Holds m c (t.val - 1) (Nat.lt_of_le_of_lt (Nat.sub_le _ _) t.isLt)) : Holds m c t.val t.isLt := by
  obtain ⟨hacc, hnorm, hmin⟩ := hp
  have hb : batchOf (t.val - 1) = batchOf t.val := Fin.ext (by
    show ((t.val - 1) / 16) % 8 = (t.val / 16) % 8
    omega)
  have hr : (t.val - 1) % 16 + 1 = t.val % 16 := by omega
  rw [hb] at hnorm
  rw [hb, hr] at hacc hmin
  refine ⟨fun l => ?_, fun q => ?_, fun q => ?_⟩
  · rw [acc_later m c t h0, rowAcc_apply, hacc l, tile_rows m c t _ hnorm, Finset.sum_range_succ]
  · rw [norms_later m c t h0]
    exact hnorm q
  · rw [cmin_later m c t h0, colMin_apply, hmin q, tile_cols m c t _ hnorm q, inf_range_succ]

theorem holds : ∀ (n : ℕ) (hn : n < cfg0.N), Holds m c n hn
  | 0, hn => holds_first m c ⟨0, hn⟩ rfl
  | n + 1, hn => by
    by_cases h0 : (n + 1) % 16 = 0
    · exact holds_first m c ⟨n + 1, hn⟩ h0
    · exact holds_later m c ⟨n + 1, hn⟩ h0 (holds n (Nat.lt_of_succ_lt hn))

/-! ## What is written back -/

/-- After the last tile of batch `b` the first output's buffer holds the batch's row part at every lane. -/
theorem rows_done (t : Fin cfg0.N) (h15 : t.val % 16 = 15) (l : Fin 128) :
    (outsAt0 m c t.val t.isLt).1 (ix3 (0 : Fin 1) (0 : Fin 1) l) = rowPart (X m c) (Y m c) (batchOf t.val) := by
  rw [(holds m c t.val t.isLt).1 l, h15]
  rfl

/-- … and the second output's buffer the batch's column part. -/
theorem cols_done (t : Fin cfg0.N) (h15 : t.val % 16 = 15) (l : Fin 128) :
    (outsAt0 m c t.val t.isLt).2.1 (ix3 (0 : Fin 1) (0 : Fin 1) l) = colPart (X m c) (Y m c) (batchOf t.val) := by
  rw [total_last m c t (by omega) h15, colSum_apply]
  unfold colPart
  refine Finset.sum_congr rfl fun q _ => congrArg Ideal.sqrt ?_
  rw [(holds m c t.val t.isLt).2.2 q, h15]
  rfl

end Cert.KernelIdeal.Invariant

end
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.KFinal.lean ====
/-
  From the buffers to the arrays, and through the host's last lines, to the kernel program's result.

  Each of the two output arrays is `[8, 1, 128]`; its block for batch `b` is written back once, after the batch's last
  tile, and the eight blocks tile the array. So the first array ends holding, at `(b, 0, l)`, the row part of batch `b`
  and the second the column part. The host then takes lane `0` of each batch, adds the eight numbers of each array
  from `0`, adds the two sums and multiplies by the scale: the tiled arrangement of the nearest-point sums.
-/
import proofs.«118954_j91276644974602_2_alg».proof.Proof.KInvariant
import proofs.«118954_j91276644974602_2_alg».proof.Proof.LibAxisSums
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Invariant Cert.NearestSum

variable (m : (ℓ : Loc nD τ sig) → Buf (Elt Ideal) ℓ) (ρ : Dev nD → PrngReg)

-- The point-by-point contents are used only through what the invariant says of them.
attribute [local irreducible] outsAt0

/-- The batch coordinate of an index of an `[8, 1, 128]` array. -/
abbrev batchIdx (i : S8x1x128.Idx) : Fin 8 := ⟨(i 0).val, (i 0).isLt⟩

/-- The first output array's final contents: at `(b, 0, l)` the row part of batch `b`. -/
def rowsArr (c : Dev nD) : S8x1x128.Idx → EReal := fun i => rowPart (X m c) (Y m c) (batchIdx i)
/-- The second output array's final contents: at `(b, 0, l)` the column part of batch `b`. -/
def colsArr (c : Dev nD) : S8x1x128.Idx → EReal := fun i => colPart (X m c) (Y m c) (batchIdx i)

/-- A `[1, 1, 128]` buffer that holds `T` at every lane holds it at every index. -/
theorem of_lanes (f : S1x1x128.Idx → EReal) (T : EReal) (h : ∀ l : Fin 128, f (ix3 (0 : Fin 1) (0 : Fin 1) l) = T)
    (y : S1x1x128.Idx) : f y = T := by
  have h0 : (y 0).val < 1 := (y 0).isLt
  have h1 : (y 1).val < 1 := (y 1).isLt
  have e : y = ix3 (0 : Fin 1) (0 : Fin 1) (⟨(y 2).val, (y 2).isLt⟩ : Fin 128) := funext fun a => Fin.ext (by
    match a with
    | ⟨0, _⟩ => show (y 0).val = 0; omega
    | ⟨1, _⟩ => show (y 1).val = 0; omega
    | ⟨2, _⟩ => rfl)
  rw [e]
  exact h _

/-- Where output window 2's block sits: batch `t / 16`. -/
theorem index2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- What the last tile of a batch writes back through window 2 is that batch's block of `rowsArr`. -/
theorem flushed2_eq (c : Dev nD) (t : Fin cfg0.N) (hf : (cfg0.win 2).flush t = true) :
    (dats m 0 c).flushed 2 t = ((cfg0.win 2).blk t).view.read (Elt Ideal) (rowsArr m c) := by
  have h15 : t.val % 16 = 15 := (flush0_2 t).mp hf
  obtain ⟨e0, e1, e2⟩ := index2 t
  have hN : t.val < 128 := lt_of_lt_of_eq t.isLt N128
  show (cfg0.win 2).cut (grid0.coords t) ((dats m 0 c).after 2 t) = _
  rw [after0_2]
  funext j
  show (outsAt0 m c t.val t.isLt).1 j = rowsArr m c (((cfg0.win 2).blk t).view.emb j)
  rw [of_lanes (outsAt0 m c t.val t.isLt).1 _ (rows_done m c t h15) j]
  unfold rowsArr
  refine congrArg (rowPart (X m c) (Y m c)) (Fin.ext ?_)
  show (t.val / 16) % 8 = win0_2.index t 0 * 1 + 1 * (j 0).val
  have hj : (j 0).val < 1 := (j 0).isLt
  rw [e0]
  omega

/-- An index of the array is in point `t`'s block iff each coordinate is in the block's range on its axis. -/
theorem mem_blk2 (t : Fin cfg0.N) (i : S8x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v1_0).slice (win0_2.rect t)).set ↔ _
  rw [View.set_slice_whole, Rect.mem_set_unit]
  exact Iff.rfl

/-- Every index of the array is in the block some batch's last tile writes back. -/
theorem cover2 (i : S8x1x128.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 128 := (i 2).isLt
  obtain ⟨t, ht⟩ : ∃ t : Fin cfg0.N, t.val = 16 * (i 0).val + 15 := ⟨⟨16 * (i 0).val + 15, by rw [N128]; omega⟩, rfl⟩
  obtain ⟨e0, e1, e2⟩ := index2 t
  refine ⟨t, (flush0_2 t).mpr (by omega), ?_⟩
  rw [mem_blk2]
  intro a
  match a with
  | ⟨0, _⟩ =>
    show win0_2.index t 0 * 1 ≤ (i 0).val ∧ (i 0).val < win0_2.index t 0 * 1 + 1
    rw [e0]; omega
  | ⟨1, _⟩ =>
    show win0_2.index t 1 * 1 ≤ (i 1).val ∧ (i 1).val < win0_2.index t 1 * 1 + 1
    rw [e1]; omega
  | ⟨2, _⟩ =>
    show win0_2.index t 2 * 128 ≤ (i 2).val ∧ (i 2).val < win0_2.index t 2 * 128 + 128
    rw [e2]; omega

/-- The array after the run. -/
theorem final2 (c : Dev nD) : (dats m 0 c).arrAt 2 cfg0.N = rowsArr m c :=
  (dats m 0 c).arrAt_eq_of_cover 2 (rowsArr m c) (flushed2_eq m c) (cover2)

/-- Where output window 3's block sits: batch `t / 16`. -/
theorem index3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- What the last tile of a batch writes back through window 3 is that batch's block of `colsArr`. -/
theorem flushed3_eq (c : Dev nD) (t : Fin cfg0.N) (hf : (cfg0.win 3).flush t = true) :
    (dats m 0 c).flushed 3 t = ((cfg0.win 3).blk t).view.read (Elt Ideal) (colsArr m c) := by
  have h15 : t.val % 16 = 15 := (flush0_3 t).mp hf
  obtain ⟨e0, e1, e2⟩ := index3 t
  have hN : t.val < 128 := lt_of_lt_of_eq t.isLt N128
  show (cfg0.win 3).cut (grid0.coords t) ((dats m 0 c).after 3 t) = _
  rw [after0_3]
  funext j
  show (outsAt0 m c t.val t.isLt).2.1 j = colsArr m c (((cfg0.win 3).blk t).view.emb j)
  rw [of_lanes (outsAt0 m c t.val t.isLt).2.1 _ (cols_done m c t h15) j]
  unfold colsArr
  refine congrArg (colPart (X m c) (Y m c)) (Fin.ext ?_)
  show (t.val / 16) % 8 = win0_3.index t 0 * 1 + 1 * (j 0).val
  have hj : (j 0).val < 1 := (j 0).isLt
  rw [e0]
  omega

/-- An index of the array is in point `t`'s block iff each coordinate is in the block's range on its axis. -/
theorem mem_blk3 (t : Fin cfg0.N) (i : S8x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v1_1).slice (win0_3.rect t)).set ↔ _
  rw [View.set_slice_whole, Rect.mem_set_unit]
  exact Iff.rfl

/-- Every index of the array is in the block some batch's last tile writes back. -/
theorem cover3 (i : S8x1x128.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 128 := (i 2).isLt
  obtain ⟨t, ht⟩ : ∃ t : Fin cfg0.N, t.val = 16 * (i 0).val + 15 := ⟨⟨16 * (i 0).val + 15, by rw [N128]; omega⟩, rfl⟩
  obtain ⟨e0, e1, e2⟩ := index3 t
  refine ⟨t, (flush0_3 t).mpr (by omega), ?_⟩
  rw [mem_blk3]
  intro a
  match a with
  | ⟨0, _⟩ =>
    show win0_3.index t 0 * 1 ≤ (i 0).val ∧ (i 0).val < win0_3.index t 0 * 1 + 1
    rw [e0]; omega
  | ⟨1, _⟩ =>
    show win0_3.index t 1 * 1 ≤ (i 1).val ∧ (i 1).val < win0_3.index t 1 * 1 + 1
    rw [e1]; omega
  | ⟨2, _⟩ =>
    show win0_3.index t 2 * 128 ≤ (i 2).val ∧ (i 2).val < win0_3.index t 2 * 128 + 128
    rw [e2]; omega

/-- The array after the run. -/
theorem final3 (c : Dev nD) : (dats m 0 c).arrAt 3 cfg0.N = colsArr m c :=
  (dats m 0 c).arrAt_eq_of_cover 3 (colsArr m c) (flushed3_eq m c) (cover3)

/-! ## The host's last lines -/

/-- Lane `0` of every batch of an `[8, 1, 128]` array, as a vector of eight. -/
def lane0 (a : S8x1x128.Idx → EReal) : FVec Ideal S8 .f32 :=
  shapeCast S8 (extractStridedSlice S8x1x1 ![0, 0, 0] a slices_S8x1x128_S8x1x1_0_0_0) shapeCasts_S8x1x1_S8

theorem lane0_apply (a : S8x1x128.Idx → EReal) (k : Fin 8) : lane0 a (ix1 k) = a (ix3 k (0 : Fin 1) (0 : Fin 128)) := by
  unfold lane0
  refine (shapeCast_apply _ shapeCasts_S8x1x1_S8 (ix1 k) (ix3 k (0 : Fin 1) (0 : Fin 1)) (by
    rw [Shape.rowMajor_val_three, Shape.rowMajor_val_one]
    show (k.val * 1 + 0) * 1 + 0 = k.val
    omega)).trans ?_
  exact extractStridedSlice_apply ![0, 0, 0] a slices_S8x1x128_S8x1x1_0_0_0 (ix3 k (0 : Fin 1) (0 : Fin 1)) (ix3 k (0 : Fin 1) (0 : Fin 128))
    (fun ax => match ax with
      | ⟨0, _⟩ => (Nat.zero_add _).symm
      | ⟨1, _⟩ => rfl
      | ⟨2, _⟩ => rfl)

/-- The host's sum of a vector of eight from the zero word. -/
theorem hostSum8_apply (x : FVec Ideal S8 .f32) (i : S_.Idx) :
    Host.reduceAdd x (constant (F := Ideal) S_ .f32 0x00000000#32) reducesTo_S8_S_d0 h_S_ i = ∑ k : Fin 8, x (ix1 k) := by
  simp only [Host.reduceAdd, Ideal.hostReduceAdd_def]
  rw [Ideal.hostReduceAdd_total reducesTo_S8_S_d0 (fun b => b.elim0) x _ i, constant_apply, Ideal.ofBits_zero_f32, zero_add,
    Cert.LibAxisSums.sum_idx1]

/-- The host's last lines as one function of the two output arrays. -/
def hostTail (a b : S8x1x128.Idx → EReal) : S_.Idx → EReal :=
  mulf (F := Ideal) (φ := .f32)
    (addf (F := Ideal) (φ := .f32)
      (Host.reduceAdd (lane0 a) (constant (F := Ideal) S_ .f32 0x00000000#32) reducesTo_S8_S_d0 h_S_)
      (Host.reduceAdd (lane0 b) (constant (F := Ideal) S_ .f32 0x00000000#32) reducesTo_S8_S_d0 h_S_))
    (constant (F := Ideal) S_ .f32 0x38D1B717#32)

theorem hostTail_apply (a b : S8x1x128.Idx → EReal) (i : S_.Idx) :
    hostTail a b i = ((∑ k : Fin 8, a (ix3 k (0 : Fin 1) (0 : Fin 128))) + (∑ k : Fin 8, b (ix3 k (0 : Fin 1) (0 : Fin 128))))
      * Ideal.ofBits .f32 0x38D1B717#32 := by
  unfold hostTail
  rw [mulf_apply, addf_apply, hostSum8_apply, hostSum8_apply, constant_apply,
    Finset.sum_congr rfl fun k _ => lane0_apply a k, Finset.sum_congr rfl fun k _ => lane0_apply b k]

/-- The result buffer after the host's last lines. -/
theorem tail_eq (c : Dev nD) :
    Pipeline.afterTail₀ cfgs (dats m) 0 (V0 m) [hostOps1] c main_v9 = hostTail (rowsArr m c) (colsArr m c) := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.devRef .tc main_v1_0)
        = rowsArr m c from (Pipeline.withArrays_arr spec0 launch0.win.arr_inj c _ _ 2).trans (final2 m c),
    show Pipeline.withArrays (cfgs 0).spec c (V0 m c) (fun w => (dats m 0 c).arrAt w (cfgs 0).N) (Proc.devRef .tc main_v1_1)
        = colsArr m c from (Pipeline.withArrays_arr spec0 launch0.win.arr_inj c _ _ 3).trans (final3 m c)]
  rfl

/-- The kernel program's result: the tiled arrangement, scaled. -/
def result (c : Dev nD) : Buf (Elt Ideal) ((c : Thread nD τ).loc main_v9) :=
  fun _ => tiled (X m c) (Y m c) (Ideal.ofBits .f32 0x38D1B717#32)

theorem hostTail_result (c : Dev nD) : hostTail (rowsArr m c) (colsArr m c) = result m c := by
  funext i
  rw [hostTail_apply]
  rfl

/-- The run, read: the result buffer at the tiled arrangement, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v9 (Pipeline.mem_restRefs_of main_v9 (by decide) (by decide))).trans ((tail_eq m c).trans (hostTail_result m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Final

end
-- ==== Proof.LibHostMin.lean ====
/-
  The host's one-operand reduction with a minimum body over the LAST axis of a rank-3 array, started from an initial
  value that denotes `⊤`, read at `(b, n)` at the ideal values: the infimum over the last coordinate `m` of the entries
  `(b, n, m)`. The reduction folds `min` over that axis in some order; `min` commutes and associates, so the fold is
  the fold over the finite set of the coordinate, which from `⊤` is that set's infimum.
-/
import Idealize.ShloMosaic.Lib.ValueIdx
import Idealize.ShloMosaic.PureOps.Ideal.Laws

namespace Cert.LibHostMin

open Idealize.ShloMosaic Idealize.ShloMosaic.ValueIdx

/-- A host minimum reduction over the last axis of `[n0, n1, n2]` from `⊤`, read at `(b, n)`. -/
theorem hostReduce_minimumf_lastAxis3_apply {n0 n1 n2 : ℕ} (x : FVec Ideal ⟨3, ![n0, n1, n2]⟩ .f32)
    (init : (⟨0, ![]⟩ : Shape).Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < (⟨0, ![]⟩ : Shape).numel) (htop : init (Shape.Idx.first hu) = (⊤ : EReal)) (b : Fin n0) (n : Fin n1) :
    Host.reduce FloatOps.minimumf x init h' hu (ix2 b n) = (Finset.univ.inf fun m : Fin n2 => x (ix3 b n m) : EReal) := by
  rw [Host.reduce_eq_fold_single FloatOps.minimumf x init h' h hu]
  show (Finset.univ : Finset (Fin n2)).fold min (init (Shape.Idx.first hu)) (fun m => x (h.lift (ix2 b n) m)) = _
  rw [htop]
  refine Eq.trans (rfl : (Finset.univ : Finset (Fin n2)).fold min (⊤ : EReal) _ = Finset.univ.inf _)
    (Finset.inf_congr rfl fun m _ => congrArg x ?_)
  funext ax; apply Fin.ext
  match ax with
  | ⟨0, _⟩ => rfl
  | ⟨1, _⟩ => rfl
  | ⟨2, _⟩ => rfl

end Cert.LibHostMin
-- ==== Proof.RefSide.lean ====
/-
  The reference program's result as the direct arrangement of the nearest-point sums.

  Stage by stage, at an index written by its coordinates: the sum of squares of a point's three coordinates (the first
  cloud's are the first three of six columns), the product sum of a pair of points, the clamped expanded squared
  distance and its root for a pair `(n, m)` — and for a pair `(m, n)` in the second direction —, the minimum over the
  last coordinate from `+∞`, the total over `(b, n)` resp. `(b, m)` from `0`, the two totals added and scaled.
-/
import proofs.«118954_j91276644974602_2_alg».proof.Proof.Gen.ReferenceIdeal.Run
import proofs.«118954_j91276644974602_2_alg».proof.Proof.Gen.ReferenceIdeal.Read
import proofs.«118954_j91276644974602_2_alg».proof.Proof.NearestSum
import proofs.«118954_j91276644974602_2_alg».proof.Proof.LibHostMin
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.Read Cert.NearestSum

variable (x0 : (⟨S8x8192x6, .f32⟩ : BufTy).Contents (Elt Ideal)) (x1 : (⟨S8x2048x3, .f32⟩ : BufTy).Contents (Elt Ideal))

/-! ## The composed index maps, by coordinates -/

theorem e_v0 (b : Fin 8) (n : Fin 8192) (k : Fin 3) : idx_main_v0 (ix3 b n k) = ix3 b n (col6 k) :=
  funext fun a => Fin.ext (by
    match a with
    | ⟨0, _⟩ => rfl
    | ⟨1, _⟩ => rfl
    | ⟨2, _⟩ => rfl)

theorem e_v2 (b : Fin 8) (n : Fin 8192) (k : Fin 3) : idx_main_v2 (ix2 b n) k = ix3 b n k :=
  funext fun a => Fin.ext (by
    match a with
    | ⟨0, _⟩ => rfl
    | ⟨1, _⟩ => rfl
    | ⟨2, _⟩ => rfl)

theorem e_v3 (b : Fin 8) (n : Fin 8192) (u : Fin 1) : idx_main_v3 (ix3 b n u) = ix2 b n :=
  funext fun a => Fin.ext (by
    match a with
    | ⟨0, _⟩ => rfl
    | ⟨1, _⟩ => rfl)

theorem e_v7 (b : Fin 8) (n : Fin 8192) (m : Fin 2048) : idx_main_v7 (ix3 b n m) = ix3 b n (0 : Fin 1) :=
  funext fun a => Fin.ext (by
    match a with
    | ⟨0, _⟩ => rfl
    | ⟨1, _⟩ => rfl
    | ⟨2, _⟩ => rfl)

theorem e_v5 (b : Fin 8) (m : Fin 2048) (k : Fin 3) : idx_main_v5 (ix2 b m) k = ix3 b m k :=
  funext fun a => Fin.ext (by
    match a with
    | ⟨0, _⟩ => rfl
    | ⟨1, _⟩ => rfl
    | ⟨2, _⟩ => rfl)

theorem e_v6 (b : Fin 8) (u : Fin 1) (m : Fin 2048) : idx_main_v6 (ix3 b u m) = ix2 b m :=
  funext fun a => Fin.ext (by
    match a with
    | ⟨0, _⟩ => rfl
    | ⟨1, _⟩ => rfl)

theorem e_v8 (b : Fin 8) (n : Fin 8192) (m : Fin 2048) : idx_main_v8 (ix3 b n m) = ix3 b (0 : Fin 1) m :=
  funext fun a => Fin.ext (by
    match a with
    | ⟨0, _⟩ => rfl
    | ⟨1, _⟩ => rfl
    | ⟨2, _⟩ => rfl)

theorem e_l10 (b : Fin 8) (n : Fin 8192) (m : Fin 2048) (k : Fin 3) : lidx_main_v10 (ix3 b n m) k = ix3 b n k :=
  funext fun a => Fin.ext (by
    match a with
    | ⟨0, _⟩ => rfl
    | ⟨1, _⟩ => rfl
    | ⟨2, _⟩ => rfl)

theorem e_r10 (b : Fin 8) (n : Fin 8192) (m : Fin 2048) (k : Fin 3) : ridx_main_v10 (ix3 b n m) k = ix3 b m k :=
  funext fun a => Fin.ext (by
    match a with
    | ⟨0, _⟩ => rfl
    | ⟨1, _⟩ => rfl
    | ⟨2, _⟩ => rfl)

theorem e_v20 (b : Fin 8) (m : Fin 2048) (k : Fin 3) : idx_main_v20 (ix2 b m) k = ix3 b m k :=
  funext fun a => Fin.ext (by
    match a with
    | ⟨0, _⟩ => rfl
    | ⟨1, _⟩ => rfl
    | ⟨2, _⟩ => rfl)

theorem e_v21 (b : Fin 8) (m : Fin 2048) (u : Fin 1) : idx_main_v21 (ix3 b m u) = ix2 b m :=
  funext fun a => Fin.ext (by
    match a with
    | ⟨0, _⟩ => rfl
    | ⟨1, _⟩ => rfl)

theorem e_v25 (b : Fin 8) (m : Fin 2048) (n : Fin 8192) : idx_main_v25 (ix3 b m n) = ix3 b m (0 : Fin 1) :=
  funext fun a => Fin.ext (by
    match a with
    | ⟨0, _⟩ => rfl
    | ⟨1, _⟩ => rfl
    | ⟨2, _⟩ => rfl)

theorem e_v23 (b : Fin 8) (n : Fin 8192) (k : Fin 3) : idx_main_v23 (ix2 b n) k = ix3 b n k :=
  funext fun a => Fin.ext (by
    match a with
    | ⟨0, _⟩ => rfl
    | ⟨1, _⟩ => rfl
    | ⟨2, _⟩ => rfl)

theorem e_v24 (b : Fin 8) (u : Fin 1) (n : Fin 8192) : idx_main_v24 (ix3 b u n) = ix2 b n :=
  funext fun a => Fin.ext (by
    match a with
    | ⟨0, _⟩ => rfl
    | ⟨1, _⟩ => rfl)

theorem e_v26 (b : Fin 8) (m : Fin 2048) (n : Fin 8192) : idx_main_v26 (ix3 b m n) = ix3 b (0 : Fin 1) n :=
  funext fun a => Fin.ext (by
    match a with
    | ⟨0, _⟩ => rfl
    | ⟨1, _⟩ => rfl
    | ⟨2, _⟩ => rfl)

theorem e_l28 (b : Fin 8) (m : Fin 2048) (n : Fin 8192) (k : Fin 3) : lidx_main_v28 (ix3 b m n) k = ix3 b m k :=
  funext fun a => Fin.ext (by
    match a with
    | ⟨0, _⟩ => rfl
    | ⟨1, _⟩ => rfl
    | ⟨2, _⟩ => rfl)

theorem e_r28 (b : Fin 8) (m : Fin 2048) (n : Fin 8192) (k : Fin 3) : ridx_main_v28 (ix3 b m n) k = ix3 b n k :=
  funext fun a => Fin.ext (by
    match a with
    | ⟨0, _⟩ => rfl
    | ⟨1, _⟩ => rfl
    | ⟨2, _⟩ => rfl)

/-! ## Entries of the two clouds -/

theorem entryX (b : Fin 8) (n : Fin 8192) (k : Fin 3) : val_main_v0 (F := Ideal) x0 (ix3 b n k) = cloudX x0 b n k := by
  rw [val_main_v0_apply, e_v0]
  rfl

/-! ## Squared norms and product sums -/

theorem sqX (b : Fin 8) (n : Fin 8192) : val_main_v2 (F := Ideal) x0 (ix2 b n) = sq3 (cloudX x0 b n) := by
  rw [val_main_v2_apply, sum_three, e_v2, e_v2, e_v2, val_main_v1_apply, val_main_v1_apply, val_main_v1_apply, entryX, entryX, entryX,
    val_main_cst_apply, Ideal.ofBits_def, Ideal.ofBits_zero_f32, zero_add]
  rfl

theorem sqX' (b : Fin 8) (n : Fin 8192) : val_main_v23 (F := Ideal) x0 (ix2 b n) = sq3 (cloudX x0 b n) := by
  rw [val_main_v23_apply, sum_three, e_v23, e_v23, e_v23, val_main_v22_apply, val_main_v22_apply, val_main_v22_apply, entryX, entryX, entryX,
    val_main_cst_6_apply, Ideal.ofBits_def, Ideal.ofBits_zero_f32, zero_add]
  rfl

theorem sqY (b : Fin 8) (m : Fin 2048) : val_main_v5 (F := Ideal) x1 (ix2 b m) = sq3 (cloudY x1 b m) := by
  rw [val_main_v5_apply, sum_three, e_v5, e_v5, e_v5, val_main_v4_apply, val_main_v4_apply, val_main_v4_apply,
    val_main_cst_0_apply, Ideal.ofBits_def, Ideal.ofBits_zero_f32, zero_add]
  rfl

theorem sqY' (b : Fin 8) (m : Fin 2048) : val_main_v20 (F := Ideal) x1 (ix2 b m) = sq3 (cloudY x1 b m) := by
  rw [val_main_v20_apply, sum_three, e_v20, e_v20, e_v20, val_main_v19_apply, val_main_v19_apply, val_main_v19_apply,
    val_main_cst_5_apply, Ideal.ofBits_def, Ideal.ofBits_zero_f32, zero_add]
  rfl

theorem dotXY (b : Fin 8) (n : Fin 8192) (m : Fin 2048) :
    val_main_v10 (F := Ideal) x0 x1 (ix3 b n m) = dot3 (cloudX x0 b n) (cloudY x1 b m) := by
  rw [val_main_v10_apply, sum_three, e_l10, e_l10, e_l10, e_r10, e_r10, e_r10, entryX, entryX, entryX]
  rfl

theorem dotYX (b : Fin 8) (m : Fin 2048) (n : Fin 8192) :
    val_main_v28 (F := Ideal) x0 x1 (ix3 b m n) = dot3 (cloudY x1 b m) (cloudX x0 b n) := by
  rw [val_main_v28_apply, sum_three, e_l28, e_l28, e_l28, e_r28, e_r28, e_r28, entryX, entryX, entryX]
  rfl

/-! ## A pair's distance, both ways -/

theorem pairXY (b : Fin 8) (n : Fin 8192) (m : Fin 2048) :
    val_main_v16 (F := Ideal) x0 x1 (ix3 b n m) = Ideal.sqrt (dist2 (cloudX x0 b n) (cloudY x1 b m)) := by
  rw [val_main_v16_apply, val_main_v15_apply, val_main_v14_apply, val_main_cst_2_apply, val_main_v13_apply, val_main_v12_apply,
    val_main_v11_apply, val_main_cst_1_apply, dotXY, val_main_v9_apply, val_main_v8_apply, e_v8, val_main_v6_apply, e_v6, sqY,
    val_main_v7_apply, e_v7, val_main_v3_apply, e_v3, sqX, Ideal.hostUnary_sqrt_def, Ideal.ofBits_def, Ideal.ofBits_def,
    Ideal.ofBits_zero_f32]
  rfl

theorem pairYX (b : Fin 8) (m : Fin 2048) (n : Fin 8192) :
    val_main_v34 (F := Ideal) x0 x1 (ix3 b m n) = Ideal.sqrt (dist2 (cloudY x1 b m) (cloudX x0 b n)) := by
  rw [val_main_v34_apply, val_main_v33_apply, val_main_v32_apply, val_main_cst_8_apply, val_main_v31_apply, val_main_v30_apply,
    val_main_v29_apply, val_main_cst_7_apply, dotYX, val_main_v27_apply, val_main_v26_apply, e_v26, val_main_v24_apply, e_v24, sqX',
    val_main_v25_apply, e_v25, val_main_v21_apply, e_v21, sqY', Ideal.hostUnary_sqrt_def, Ideal.ofBits_def, Ideal.ofBits_def,
    Ideal.ofBits_zero_f32]
  rfl

/-! ## The minima and the totals -/

theorem topWord : Ideal.ofBits .f32 0x7F800000#32 = (⊤ : EReal) := by simp [Ideal.ofBits, Ideal.ieee]

theorem nearestX (b : Fin 8) (n : Fin 8192) :
    val_main_v17 (F := Ideal) x0 x1 (ix2 b n)
      = Finset.univ.inf fun m : Fin 2048 => Ideal.sqrt (dist2 (cloudX x0 b n) (cloudY x1 b m)) := by
  unfold val_main_v17
  refine (Cert.LibHostMin.hostReduce_minimumf_lastAxis3_apply (val_main_v16 (F := Ideal) x0 x1) (val_main_cst_3 (F := Ideal))
    reducesTo_S8x8192x2048_S8x8192_d2 (by decide) h_S_ topWord b n).trans ?_
  exact Finset.inf_congr rfl fun m _ => pairXY x0 x1 b n m

theorem nearestY (b : Fin 8) (m : Fin 2048) :
    val_main_v35 (F := Ideal) x0 x1 (ix2 b m)
      = Finset.univ.inf fun n : Fin 8192 => Ideal.sqrt (dist2 (cloudY x1 b m) (cloudX x0 b n)) := by
  unfold val_main_v35
  refine (Cert.LibHostMin.hostReduce_minimumf_lastAxis3_apply (val_main_v34 (F := Ideal) x0 x1) (val_main_cst_9 (F := Ideal))
    reducesTo_S8x2048x8192_S8x2048_d2 (by decide) h_S_ topWord b m).trans ?_
  exact Finset.inf_congr rfl fun n _ => pairYX x0 x1 b m n

/-- The reference's result is the direct arrangement, scaled by the word both programs multiply by. -/
theorem result_eq (i : S_.Idx) :
    val_main_v38 (F := Ideal) x0 x1 i = direct (cloudX x0) (cloudY x1) (Ideal.ofBits .f32 0x38D1B717#32) := by
  rw [val_main_v38_apply, val_main_v37_apply, val_main_v18_apply, val_main_v36_apply, val_main_cst_4_apply, val_main_cst_10_apply,
    val_main_cst_11_apply, Ideal.ofBits_def, Ideal.ofBits_def, Ideal.ofBits_zero_f32, zero_add, zero_add, sum_idx2, sum_idx2]
  unfold direct
  rw [Finset.sum_congr rfl fun b _ => Finset.sum_congr rfl fun n _ => nearestX x0 x1 b n,
    Finset.sum_congr rfl fun b _ => Finset.sum_congr rfl fun m _ => nearestY x0 x1 b m]
  rfl

end Cert.ReferenceIdeal.RefValue

end
-- ==== Proof.lean ====
/-
  The claim: the tiled kernel program and the direct reference compute the same number on the extended reals.

  Both programs take two clouds of points in space — `X`, 8 batches of 8192 points (the first three of six columns of
  the first array), and `Y`, 8 batches of 2048 points — and return, scaled by one f32 word, the sum over every point of
  either cloud of its distance to the nearest point of the other cloud of the same batch, the squared distance taken in
  the expanded form `(|u|² + |v|²) - 2·⟨u, v⟩` clamped below at `0`.

  The reference takes the root of every pair's squared distance and then the minima. The kernel sweeps the 8192 points
  in 16 tiles of 512 per batch: on each tile it forms the `[512, 2048]` squared distances once, adds the roots of the
  row minima to a running sum, and folds the column minima into a running minimum whose roots it sums after the last
  tile. The two agree because the root is monotone (so it commutes with a minimum and with a finite infimum), a point's
  index is `512·j + p` for one tile `j` and row `p`, and the expanded squared distance is symmetric. No finiteness of
  the inputs is used.

  • The three frames: the two kernel programs' are the generated frame runs; the reference's is its generated run with
    the result dropped.
  • Nothing was rewritten by the idealization, so that conjunct is `True`.
  • The value conjunct: the kernel program's run ends with its result at the tiled arrangement (module KFinal, over
    the invariant of the carried buffers in KInvariant); the reference's generated run ends with its result at the
    direct arrangement (module RefSide); the two arrangements are equal (module NearestSum).
-/
import proofs.«118954_j91276644974602_2_alg».proof.Defs
import proofs.«118954_j91276644974602_2_alg».proof.Proof.Gen.Kernel
import proofs.«118954_j91276644974602_2_alg».proof.Proof.Gen.Kernel.Skeleton
import proofs.«118954_j91276644974602_2_alg».proof.Proof.Gen.Kernel.Launch
import proofs.«118954_j91276644974602_2_alg».proof.Proof.Gen.Kernel.Points
import proofs.«118954_j91276644974602_2_alg».proof.Proof.Gen.Kernel.Frame
import proofs.«118954_j91276644974602_2_alg».proof.Proof.Gen.KernelIdeal
import proofs.«118954_j91276644974602_2_alg».proof.Proof.Gen.KernelIdeal.Skeleton
import proofs.«118954_j91276644974602_2_alg».proof.Proof.Gen.KernelIdeal.Launch
import proofs.«118954_j91276644974602_2_alg».proof.Proof.Gen.KernelIdeal.Points
import proofs.«118954_j91276644974602_2_alg».proof.Proof.Gen.KernelIdeal.Frame
import proofs.«118954_j91276644974602_2_alg».proof.Proof.Gen.ReferenceIdeal
import proofs.«118954_j91276644974602_2_alg».proof.Proof.Gen.ReferenceIdeal.Run
import proofs.«118954_j91276644974602_2_alg».proof.Proof.Gen.ReferenceIdeal.Read
import proofs.«118954_j91276644974602_2_alg».proof.Proof.Gen.Pre_finite_inputs
import proofs.«118954_j91276644974602_2_alg».proof.Proof.NearestSum
import proofs.«118954_j91276644974602_2_alg».proof.Proof.KFinal
import proofs.«118954_j91276644974602_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arrays, the kernel program ends with its result at the tiled arrangement of
    the nearest-point sums and the reference with its result at the direct arrangement of the same clouds: equal. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2]
  funext i
  rw [Cert.ReferenceIdeal.RefValue.result_eq]
  exact (Cert.NearestSum.tiled_eq_direct _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
